-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 104
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S1x64, .f32⟩
  | .hbm, ⟨73, _⟩ => ⟨S_, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x1, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49_0 : Ref sig .tc := ⟨.hbm, 71, rfl⟩
abbrev main_v49_1 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S_, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S100000x64, .f32⟩
  | .hbm, ⟨103, _⟩ => ⟨S100000x64, .i1⟩
  | .hbm, ⟨104, _⟩ => ⟨S_, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S_, .i32⟩
  | .hbm, ⟨110, _⟩ => ⟨S1700000, .i32⟩
  | .hbm, ⟨111, _⟩ => ⟨S1700000, .i1⟩
  | .hbm, ⟨112, _⟩ => ⟨S_, .i32⟩
  | .hbm, ⟨113, _⟩ => ⟨S1700000, .i32⟩
  | .hbm, ⟨114, _⟩ => ⟨S1700000, .i32⟩
  | .hbm, ⟨115, _⟩ => ⟨S1700000, .i32⟩
  | .hbm, ⟨116, _⟩ => ⟨S1700000x1, .i32⟩
  | .hbm, ⟨117, _⟩ => ⟨S1700000x64, .f32⟩
  | .hbm, ⟨118, _⟩ => ⟨S1700000x1, .f32⟩
  | .hbm, ⟨119, _⟩ => ⟨S1700000x64, .f32⟩
  | .hbm, ⟨120, _⟩ => ⟨S1700000x64, .f32⟩
  | .hbm, ⟨121, _⟩ => ⟨S_, .f32⟩
  | .hbm, ⟨122, _⟩ => ⟨S100000x64, .f32⟩
  | .hbm, ⟨123, _⟩ => ⟨S1700000x1, .i32⟩
  | .hbm, ⟨124, _⟩ => ⟨S100000x64, .f32⟩
  | .hbm, ⟨125, _⟩ => ⟨S1x64, .f32⟩
  | .hbm, ⟨126, _⟩ => ⟨S100000x64, .f32⟩
  | .hbm, ⟨127, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_19 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/- The kernel's run with its result named.

   @main is ten segments: three stretches of host operations, the first dense product, a stretch (gather, scale,
   scatter-add, bias), the column statistics, a stretch (mean and variance), the normalisation with the leaky
   rectifier, the second dense product, and a last stretch (gather, scale, scatter-add, bias). The buffer contents at
   each segment boundary are a fold from the launch memory; every weakly fair execution ends with every unscoped
   buffer at the last boundary's contents. Read at the result's buffer this names the result; read at an argument's
   buffer it walks back to the launch memory. -/
import proofs.«167711_j76802605187487_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; in every final state the result
    array holds the last boundary's contents at the result's buffer, and the argument arrays are as launched. -/
theorem run_main : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KRun

end
-- ==== Proof.LibRealEntries.lean ====
/-
  General facts about extended-real arrays whose entries are all real numbers. Nothing here mentions a program.

  * `AllReal v`: every entry of `v` is a real number (neither infinity). It is kept by finite sums and products, by a
    selection between two arrays, by the reciprocal square root of an entry raised to at least one, and — whatever the
    indices are — by a gather (an entry of the result is an entry of the operand) and by an accumulating scatter (an
    entry of the result is the operand's entry plus a finite sum of update entries).
  * The coercion of a finite real sum into the extended reals is the sum of the coercions.
  * The two forms of a variance agree on real columns: for n = the number of rows, n ≠ 0, and μ = (Σ h)/n,
        (Σ (h − μ)²)/n = (Σ h²)/n − μ² ,
    each quotient the host's division by the real n. With an infinite entry the two sides need not agree, which is
    why a certificate that meets both forms has to show its column real first.
-/
import Idealize.ShloMosaic.PureOps.Ideal
import Idealize.ShloMosaic.PureOps.Ideal.Laws

noncomputable section

namespace Cert.LibRealEntries

open Idealize.ShloMosaic

/-- `1.0` denotes the real 1. -/
theorem ofBits_one : Ideal.ofBits .f32 0x3F800000#32 = ((1 : ℝ) : EReal) := by
  simp [Ideal.ofBits, Ideal.ieee, -EReal.coe_mul]; norm_num

/-! ## Every entry a real number -/

/-- Every entry of the array is a real number (neither infinity). -/
def AllReal {S : Shape} (v : S.Idx → EReal) : Prop := ∀ i, ∃ r : ℝ, v i = (r : EReal)

/-! ## Finite sums, and the two forms of the variance -/

/-- The coercion of a finite real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For a column of real numbers h over n = card ι rows (n ≠ 0), with mean μ = (Σ h)/n:
    (Σ (h − μ)²)/n = (Σ h²)/n − μ².  Both quotients are the host's division by the real n. -/
theorem var_forms_eq {ι : Type} [Fintype ι] (h : ι → EReal) (hr : ∀ k, ∃ r : ℝ, h k = (r : EReal)) (n : ℝ)
    (hn : n = (Fintype.card ι : ℝ)) (hn0 : n ≠ 0) :
    Ideal.div (∑ k, (h k - Ideal.div (∑ k, h k) (n : EReal)) * (h k - Ideal.div (∑ k, h k) (n : EReal))) (n : EReal)
      = Ideal.div (∑ k, h k * h k) (n : EReal)
        - Ideal.div (∑ k, h k) (n : EReal) * Ideal.div (∑ k, h k) (n : EReal) := by
  choose r hr using hr
  have hh : h = fun k => (r k : EReal) := funext hr
  subst hh
  simp only [Ideal.div_coe hn0]
  simp only [← EReal.coe_mul, ← coe_sum, ← EReal.coe_sub]
  congr 1
  have hc : (∑ _k : ι, (1 : ℝ)) = n := by simp [hn]
  have hn1 : n * (1 / n) = 1 := by field_simp
  have e : ∀ k, (r k - (∑ k, r k) * (1 / n)) * (r k - (∑ k, r k) * (1 / n))
      = r k * r k - 2 * ((∑ k, r k) * (1 / n)) * r k + ((∑ k, r k) * (1 / n)) * ((∑ k, r k) * (1 / n)) * 1 := fun k => by ring
  simp only [e, Finset.sum_add_distrib, Finset.sum_sub_distrib, ← Finset.mul_sum, hc]
  have : ((∑ k, r k) * (1 / n)) * ((∑ k, r k) * (1 / n)) * n = (∑ k, r k) * (∑ k, r k) * (1 / n) * (n * (1 / n)) := by ring
  rw [this, hn1]; ring

/-! ## Real numbers are closed under what the layer does -/

/-- A real number plus a finite sum of real numbers is a real number. -/
theorem real_add_sum {ι : Type} (s : Finset ι) (a : EReal) (f : ι → EReal) (ha : ∃ r : ℝ, a = (r : EReal))
    (hf : ∀ j, ∃ r : ℝ, f j = (r : EReal)) : ∃ r : ℝ, a + ∑ j ∈ s, f j = (r : EReal) := by
  obtain ⟨ra, hra⟩ := ha
  choose rf hrf using hf
  refine ⟨ra + ∑ j ∈ s, rf j, ?_⟩
  rw [EReal.coe_add, coe_sum, hra]
  exact congrArg (fun t => (ra : EReal) + t) (Finset.sum_congr rfl fun j _ => hrf j)

/-- A finite sum of real numbers is a real number. -/
theorem real_sum {ι : Type} (s : Finset ι) (f : ι → EReal) (hf : ∀ j, ∃ r : ℝ, f j = (r : EReal)) :
    ∃ r : ℝ, ∑ j ∈ s, f j = (r : EReal) := by
  choose rf hrf using hf
  exact ⟨∑ j ∈ s, rf j, by rw [coe_sum]; exact Finset.sum_congr rfl fun j _ => hrf j⟩

/-- A product of two real numbers is a real number. -/
theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- A sum of two real numbers is a real number. -/
theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- The reciprocal square root of max(d, 1) is a real number when d is: max(d, 1) ≥ 1 is neither negative nor 0. -/
theorem real_rsqrt_max_one {d : EReal} (hd : ∃ r : ℝ, d = (r : EReal)) :
    ∃ r : ℝ, Ideal.rsqrt (max d ((1 : ℝ) : EReal)) = (r : EReal) := by
  obtain ⟨rd, rfl⟩ := hd
  have h1 : (1 : ℝ) ≤ max rd 1 := le_max_right rd 1
  refine ⟨(Real.sqrt (max rd 1))⁻¹, ?_⟩
  rw [← EReal.coe_strictMono.monotone.map_max, Ideal.rsqrt_coe, if_neg (by linarith), if_neg (by linarith)]

/-- A choice between two real numbers is a real number. -/
theorem real_select (c : BitVec 1) {a b : EReal} (ha : ∃ r : ℝ, a = (r : EReal)) (hb : ∃ r : ℝ, b = (r : EReal)) :
    ∃ r : ℝ, Scalar.select c a b = (r : EReal) := by
  unfold Scalar.select
  split
  · exact ha
  · exact hb

/-- The literal 0.0 is the real number 0. -/
theorem real_zero : ∃ r : ℝ, FloatOps.ofBits (F := Ideal) .f32 0x00000000#32 = (r : EReal) :=
  ⟨0, by rw [Ideal.ofBits_def, Ideal.ofBits_zero_f32]; rfl⟩

/-- The literal 1.0 is the real number 1. -/
theorem real_one : ∃ r : ℝ, FloatOps.ofBits (F := Ideal) .f32 0x3F800000#32 = (r : EReal) :=
  ⟨1, by rw [Ideal.ofBits_def, ofBits_one]⟩

/-! ## Gathers and accumulating scatters, whatever their indices -/

/-- An entry of a gathered array is an entry of its operand. -/
theorem allReal_gather {s si t : Shape} {w : Nat} (d : GatherDims s si t) (x : s.Idx → EReal) (idx : IVec si w)
    (hx : AllReal x) : AllReal (Host.gather d x idx) :=
  fun j => hx (d.operandIdx j idx)

/-- An entry of an accumulating scatter is the operand's entry plus a finite sum of update entries. -/
theorem allReal_scatterAdd {s si u : Shape} {w : Nat} (d : ScatterDims s si u) (x : FVec Ideal s .f32) (idx : IVec si w)
    (upd : FVec Ideal u .f32) (hx : AllReal x) (hu : AllReal upd) :
    AllReal (Host.scatterAdd (F := Ideal) d x idx upd) := by
  intro i
  show ∃ r : ℝ, FloatOps.hostScatterAdd d .single x idx upd i = (r : EReal)
  rw [Ideal.hostScatterAdd_def]
  exact real_add_sum _ (x i) upd (hx i) hu

end Cert.LibRealEntries

end
-- ==== Proof.Spec.lean ====
/- The mathematics both programs share, stated once and away from either program.

   One layer of the network sends node features H to  A · (H W) + b, where A is the normalised adjacency (with
   self-loops) built from the edge list. Between the two layers every column q of the first layer's output h is
   normalised with its batch statistics and passed through a leaky rectifier:
       hn(p,q) = γ_q · (h(p,q) − μ_q) · (v_q + ε)^(-1/2) + β_q ,   out = hn if hn ≥ 0 else slope · hn .
   The kernel takes the variance as  E[h²] − μ²  and the reference as  E[(h − μ)²]. On the extended reals these agree
   when every entry of the column is a real number (`Cert.LibRealEntries.var_forms_eq`); with an infinite entry they
   need not. -/
import Idealize.ShloMosaic.PureOps.Ideal
import Idealize.ShloMosaic.PureOps.Ideal.Laws
import Idealize.ShloMosaic.Lib.ValueIdx
import proofs.«167711_j76802605187487_1_alg».proof.Proof.LibRealEntries

noncomputable section

namespace Cert.Gcn

open Idealize.ShloMosaic

export Cert.LibRealEntries (ofBits_one AllReal coe_sum var_forms_eq)

/-! ## The float literals the programs spell, as extended reals -/

/-- `100000.0`, the number of rows, denotes the real 100000. -/
theorem ofBits_rows : Ideal.ofBits .f32 0x47C35000#32 = ((100000 : ℝ) : EReal) := by
  simp [Ideal.ofBits, Ideal.ieee, -EReal.coe_mul]; norm_num

/-! ## The step between the layers, at one entry -/

/-- The normalised entry  γ · (h − μ) · (v + ε)^(-1/2) + β,  in the order both programs multiply. -/
def hnAt (h μ v g b : EReal) : EReal :=
  g * (h - μ) * Ideal.rsqrt (v + Ideal.ofBits .f32 0x3727C5AC#32) + b

/-- The leaky rectifier: x where x ≥ 0, slope · x elsewhere. -/
def leakyAt (x : EReal) : EReal :=
  Scalar.select (Ideal.cmp .oge x (Ideal.ofBits .f32 0x00000000#32)) x (Ideal.ofBits .f32 0x3C23D70A#32 * x)

/-- The step on whole arrays: h is rows × 64; the statistics and the affine pair are 1 × 64 rows. -/
def bnLeaky (h : (⟨2, ![100000, 64]⟩ : Shape).Idx → EReal) (μ v g b : (⟨2, ![1, 64]⟩ : Shape).Idx → EReal) :
    (⟨2, ![100000, 64]⟩ : Shape).Idx → EReal :=
  fun i => leakyAt (hnAt (h i) (μ (ValueIdx.ix2 (0 : Fin 1) (i 1))) (v (ValueIdx.ix2 (0 : Fin 1) (i 1)))
    (g (ValueIdx.ix2 (0 : Fin 1) (i 1))) (b (ValueIdx.ix2 (0 : Fin 1) (i 1))))

/-! ## The dense product and the column sums, on whole arrays -/

/-- The dense product of rows × 64 features with a 64 × 64 weight: entry (p, q) is Σ_k A(p,k) · W(k,q). -/
def linear (A : (⟨2, ![100000, 64]⟩ : Shape).Idx → EReal) (W : (⟨2, ![64, 64]⟩ : Shape).Idx → EReal) :
    (⟨2, ![100000, 64]⟩ : Shape).Idx → EReal :=
  fun i => ∑ k : Fin 64, A (ValueIdx.ix2 (i 0) k) * W (ValueIdx.ix2 k (i 1))

/-- The sum of every column, as a 1 × 64 row. -/
def colSum (h : (⟨2, ![100000, 64]⟩ : Shape).Idx → EReal) : (⟨2, ![1, 64]⟩ : Shape).Idx → EReal :=
  fun j => ∑ k : Fin 100000, h (ValueIdx.ix2 k (j 1))

/-- The sum of the squares of every column, as a 1 × 64 row. -/
def colSumSq (h : (⟨2, ![100000, 64]⟩ : Shape).Idx → EReal) : (⟨2, ![1, 64]⟩ : Shape).Idx → EReal :=
  fun j => ∑ k : Fin 100000, h (ValueIdx.ix2 k (j 1)) * h (ValueIdx.ix2 k (j 1))

end Cert.Gcn

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.Layer.lean ====
/- One layer of the network as ONE function, and the reference's stages as instances of it.

   A layer sends features `feat` (rows × 64) and a bias `b` to   A · feat + b:   row e of the gathered features is
   `feat` at the edge's source (a negative index wrapped once by the number of rows), scaled by the edge's
   normalisation `nrm e`, and the scaled rows are summed into their targets, starting from zero; the bias is added to
   every row. Both of the reference's layers are this function of the same three edge arrays (sources, targets,
   normalisation), applied to the dense product of the layer's input with its weight. -/
import proofs.«167711_j76802605187487_1_alg».proof.Proof.RefReadP
import proofs.«167711_j76802605187487_1_alg».proof.Proof.Spec
import proofs.«167711_j76802605187487_1_alg».proof.Proof.LibPlainDot

noncomputable section

namespace Cert.Gcn.Layer

open Cert.ReferenceIdeal Cert.ReferenceIdeal.Gen Cert.ReferenceIdeal.ReadP
open Idealize.ShloMosaic Idealize.ShloMosaic.TcCoe Idealize.ShloMosaic.StableHlo

/-- An edge array of integers (one entry per edge, self-loops included). -/
abbrev IRow := (⟨S1700000, .i32⟩ : BufTy).Contents (Elt Ideal)
/-- An edge array of floats. -/
abbrev FRow := (⟨S1700000, .f32⟩ : BufTy).Contents (Elt Ideal)
/-- Node features, rows × 64. -/
abbrev Feat := (⟨S100000x64, .f32⟩ : BufTy).Contents (Elt Ideal)
/-- A length-64 vector. -/
abbrev Vec64 := (⟨S64, .f32⟩ : BufTy).Contents (Elt Ideal)
/-- A 64 × 64 weight. -/
abbrev Wt := (⟨S64x64, .f32⟩ : BufTy).Contents (Elt Ideal)

/-- The gather's start indices: a negative entry is raised once by the number of rows; as a column. -/
def wrapIdx (v : IRow) : (⟨S1700000x1, .i32⟩ : BufTy).Contents (Elt Ideal) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The edges' normalisation from the nodes' inverse-square-root degrees: the product of the two endpoints' values. -/
def nrmOf (dinv : FVec Ideal S100000 .f32) (src dst : IRow) : FVec Ideal S1700000 .f32 :=
  mulf (Host.gather gather_S100000_S1700000x1_S1700000_n_0_n_n_0_1_1 dinv (wrapIdx src))
    (Host.gather gather_S100000_S1700000x1_S1700000_n_0_n_n_0_1_1 dinv (wrapIdx dst))

/-- A node's inverse-square-root degree where the degree is positive, zero elsewhere: a selection between two arrays. -/
def dinvOf (pos : IVec S100000 1) (r : FVec Ideal S100000 .f32) (z : FVec Ideal S_ .f32) : FVec Ideal S100000 .f32 :=
  select pos r (broadcastInDim S100000 ![] bcast_S_S100000 z)

/-- One layer: gather the sources' rows, scale each by its edge's normalisation, sum into the targets from zero, add
    the bias row. -/
def layer (src dst : IRow) (nrm : FRow) (feat : Feat) (b : Vec64) : Feat :=
  addf
    (Host.scatterAdd (F := Ideal) scatter_S100000x64_S1700000x1_S1700000x64_1_0_0_1
      (broadcastInDim S100000x64 ![] bcast_S_S100000x64 (constant (F := Ideal) S_ .f32 0x00000000#32))
      (broadcastInDim S1700000x1 ![0] bcast_S1700000_S1700000x1_0 dst)
      (mulf (Host.gather gather_S100000x64_S1700000x1_S1700000x64_1_0_n_n_0_1_164 feat (wrapIdx src))
        (broadcastInDim S1700000x64 ![0, 1] bcast_S1700000x1_S1700000x64_0_1
          (broadcastInDim S1700000x1 ![0] bcast_S1700000_S1700000x1_0 nrm))))
    (broadcastInDim S100000x64 ![0, 1] bcast_S1x64_S100000x64_0_1 (broadcastInDim S1x64 ![1] bcast_S64_S1x64_1 b))

/-- The reference's normalisation is that function of its own degree selection and edge arrays. -/
theorem ref_nrm (x1 : (⟨S2x1600000, .i32⟩ : BufTy).Contents (Elt Ideal)) :
    val_main_v31 (F := Ideal) x1
      = nrmOf (dinvOf (val_main_v12 (F := Ideal) x1) (val_main_v15 (F := Ideal) x1) (val_main_cst_3 (F := Ideal)))
          (val_main_v3 (F := Ideal) x1) (val_main_v6 (F := Ideal) x1) := rfl

/-- The reference's first layer is the layer of the dense product of the features with the first weight. -/
theorem ref_first (x0 : Feat) (x1 : (⟨S2x1600000, .i32⟩ : BufTy).Contents (Elt Ideal)) (x2 : Wt) (x3 : Vec64) :
    val_main_v48 (F := Ideal) x0 x1 x2 x3
      = layer (val_main_v3 (F := Ideal) x1) (val_main_v6 (F := Ideal) x1) (val_main_v31 (F := Ideal) x1)
          (val_main_v32 (F := Ideal) x0 x2) x3 := rfl

/-- The reference's second layer is the layer of the dense product of the rectified features with the second
    weight. -/
theorem ref_second (x0 : Feat) (x1 : (⟨S2x1600000, .i32⟩ : BufTy).Contents (Elt Ideal)) (x2 : Wt) (x3 x4 x5 : Vec64)
    (x6 : Wt) (x7 : Vec64) :
    val_main_v95 (F := Ideal) x0 x1 x2 x3 x4 x5 x6 x7
      = layer (val_main_v3 (F := Ideal) x1) (val_main_v6 (F := Ideal) x1) (val_main_v31 (F := Ideal) x1)
          (val_main_v79 (F := Ideal) x0 x1 x2 x3 x4 x5 x6) x7 := rfl

/-- The host's dense product is the sum over the contracted axis at every entry. -/
theorem dot_eq_linear (A : Feat) (W : Wt) :
    Host.dotGeneral (F := Ideal) (φ₁ := .f32) (φ₂ := .f32) dot_S100000x64_S64x64_S100000x64_1_0_0_1_n_n none A W
      = Cert.Gcn.linear A W := by
  funext i
  obtain ⟨p, q, rfl⟩ : ∃ (p : Fin 100000) (q : Fin 64), i = ValueIdx.ix2 p q := ⟨i 0, i 1, ValueIdx.eq_ix2 i⟩
  exact Cert.LibPlainDot.dotGeneral_apply _ rfl none _ A W p q

end Cert.Gcn.Layer

end
-- ==== Proof.KBn.lean ====
/- The step between the layers: the kernel's form and the reference's form are one function when every entry of
   the first layer's output is a real number.

   Both programs send the first layer's output h (rows × 64) to   leaky (γ · (h − μ) · (v + ε)^(-1/2) + β),   column by
   column, with μ the column's mean (its sum divided by the number of rows). The reference's v is the mean of the
   squared deviations; the kernel's is the mean of the squares less the square of the mean. On the extended reals the
   two agree when the column's entries are real numbers (`Cert.Gcn.var_forms_eq`); everything else is the same
   arithmetic, entry by entry, in the same order. -/
import proofs.«167711_j76802605187487_1_alg».proof.Proof.Layer
import proofs.«167711_j76802605187487_1_alg».proof.Proof.Gen.KernelIdeal
import Idealize.ShloMosaic.Lib.Pipeline.Value

set_option maxRecDepth 16384

noncomputable section

namespace Cert.Gcn.KBn

open Cert.ReferenceIdeal Cert.ReferenceIdeal.Gen Cert.ReferenceIdeal.ReadP
open Idealize.ShloMosaic Idealize.ShloMosaic.TcCoe Idealize.ShloMosaic.ValueIdx
open Cert.Gcn Cert.Gcn.Layer

/-! ## The reference's column statistics and output, at an entry -/

section Reference

variable (x0 : Feat) (x1 : (⟨S2x1600000, .i32⟩ : BufTy).Contents (Elt Ideal)) (x2 : Wt) (x3 : Vec64) (x4 x5 : Vec64)

local notation "H" => val_main_v48 (F := Ideal) x0 x1 x2 x3

theorem idx_col (q : Fin 64) (k : Fin 100000) : idx_main_v49 (ix1 q) k = ix2 k q :=
  funext fun a => match a with | ⟨0, _⟩ => rfl | ⟨1, _⟩ => rfl

theorem idx_col' (q : Fin 64) (k : Fin 100000) : idx_main_v56 (ix1 q) k = ix2 k q :=
  funext fun a => match a with | ⟨0, _⟩ => rfl | ⟨1, _⟩ => rfl

theorem div_sum_col (y : Feat) (q : Fin 64) (c : EReal) :
    Ideal.div (∑ k : Fin 100000, y (idx_main_v49 (ix1 q) k)) c = Ideal.div (∑ k : Fin 100000, y (ix2 k q)) c := by
  simp only [idx_col]

/-- The reference's column mean, with the rows enumerated as the reduction does. -/
theorem ref_mean_raw (q : Fin 64) :
    val_main_v51 (F := Ideal) x0 x1 x2 x3 (ix1 q)
      = Ideal.div (∑ k : Fin 100000, H (idx_main_v49 (ix1 q) k)) ((100000 : ℝ) : EReal) := by
  rw [val_main_v51_apply, val_main_v49_apply, val_main_v50_apply, val_main_cst_10_apply, val_main_cst_11_apply]
  simp only [Ideal.hostDivf_def, Ideal.ofBits_def, Ideal.ofBits_zero_f32, zero_add, Cert.Gcn.ofBits_rows]

/-- The reference's column mean: the column's sum divided by the number of rows. -/
theorem ref_mean (q : Fin 64) :
    val_main_v51 (F := Ideal) x0 x1 x2 x3 (ix1 q) = Ideal.div (∑ k : Fin 100000, H (ix2 k q)) ((100000 : ℝ) : EReal) :=
  (ref_mean_raw x0 x1 x2 x3 q).trans (div_sum_col _ q _)

/-- The reference's column variance: the mean of the squared deviations from the column mean. -/
theorem ref_var (q : Fin 64) :
    val_main_v58 (F := Ideal) x0 x1 x2 x3 (ix1 q)
      = Ideal.div (∑ k : Fin 100000,
          (H (ix2 k q) - Ideal.div (∑ k : Fin 100000, H (ix2 k q)) ((100000 : ℝ) : EReal))
            * (H (ix2 k q) - Ideal.div (∑ k : Fin 100000, H (ix2 k q)) ((100000 : ℝ) : EReal))) ((100000 : ℝ) : EReal) := by
  rw [val_main_v58_apply, val_main_v56_apply, val_main_v57_apply, val_main_cst_12_apply, val_main_cst_13_apply]
  simp only [Ideal.hostDivf_def, Ideal.ofBits_def, Ideal.ofBits_zero_f32, zero_add, Cert.Gcn.ofBits_rows, idx_col']
  refine congrArg (fun s : EReal => Ideal.div s ((100000 : ℝ) : EReal)) (Finset.sum_congr rfl fun k _ => ?_)
  rw [val_main_v55_apply, val_main_v54_apply, val_main_v53_apply, val_main_v52_apply]
  have e : idx_main_v52 (idx_main_v53 (ix2 k q)) = ix1 q := funext fun a => match a with | ⟨0, _⟩ => rfl
  rw [e, ref_mean]
  simp only [Ideal.mulf_def, Ideal.subf_def]

/-- The reference's output of the step at entry (p, q). -/
theorem ref_out (p : Fin 100000) (q : Fin 64) :
    val_main_v78 (F := Ideal) x0 x1 x2 x3 x4 x5 (ix2 p q)
      = leakyAt (hnAt (H (ix2 p q)) (val_main_v51 (F := Ideal) x0 x1 x2 x3 (ix1 q))
          (val_main_v58 (F := Ideal) x0 x1 x2 x3 (ix1 q)) (x4 (ix1 q)) (x5 (ix1 q))) := by
  have e1 : idx_main_v59 (idx_main_v60 (ix2 p q)) = ix1 q := funext fun a => match a with | ⟨0, _⟩ => rfl
  have e2 : idx_main_v62 (idx_main_v63 (ix2 p q)) = ix1 q := funext fun a => match a with | ⟨0, _⟩ => rfl
  have e3 : idx_main_v68 (idx_main_v69 (ix2 p q)) = ix1 q := funext fun a => match a with | ⟨0, _⟩ => rfl
  have e4 : idx_main_v71 (idx_main_v72 (ix2 p q)) = ix1 q := funext fun a => match a with | ⟨0, _⟩ => rfl
  have hn : val_main_v73 (F := Ideal) x0 x1 x2 x3 x4 x5 (ix2 p q)
      = hnAt (H (ix2 p q)) (val_main_v51 (F := Ideal) x0 x1 x2 x3 (ix1 q))
          (val_main_v58 (F := Ideal) x0 x1 x2 x3 (ix1 q)) (x4 (ix1 q)) (x5 (ix1 q)) := by
    rw [val_main_v73_apply, val_main_v70_apply, val_main_v64_apply, val_main_v61_apply, val_main_v60_apply,
      val_main_v59_apply, val_main_v63_apply, val_main_v62_apply, val_main_v69_apply, val_main_v68_apply,
      val_main_v67_apply, val_main_v66_apply, val_main_v65_apply, val_main_cst_14_apply, val_main_v72_apply,
      val_main_v71_apply, e1, e2, e3, e4]
    simp only [hnAt, Ideal.mulf_def, Ideal.addf_def, Ideal.subf_def, Ideal.hostUnary_rsqrt_def, Ideal.ofBits_def]
  rw [val_main_v78_apply, val_main_v75_apply, val_main_v77_apply, val_main_v74_apply, val_main_v76_apply,
    val_main_cst_15_apply, val_main_cst_16_apply, hn]
  simp only [leakyAt, Ideal.mulf_def, Ideal.cmpf_def, Ideal.ofBits_def]

end Reference

/-! ## The kernel's rows, at an entry -/

open Cert.KernelIdeal in
/-- A row of column sums divided by the number of rows. -/
def meanRow (s : FVec Ideal Cert.KernelIdeal.S1x64 .f32) : FVec Ideal Cert.KernelIdeal.S1x64 .f32 :=
  Host.divf (F := Ideal) s (broadcastInDim Cert.KernelIdeal.S1x64 ![] Cert.KernelIdeal.Facts₀.bcast_S_S1x64
    (constant (F := Ideal) Cert.KernelIdeal.S_ .f32 0x47C35000#32))

/-- The kernel's variance row: the mean of the squares less the square of the mean. -/
def varRow (s q : FVec Ideal Cert.KernelIdeal.S1x64 .f32) : FVec Ideal Cert.KernelIdeal.S1x64 .f32 :=
  subf (meanRow q) (mulf (meanRow s) (meanRow s))

/-- A length-64 vector as a 1 × 64 row. -/
def rowOf (v : FVec Ideal Cert.KernelIdeal.S64 .f32) : FVec Ideal Cert.KernelIdeal.S1x64 .f32 :=
  shapeCast Cert.KernelIdeal.S1x64 v Cert.KernelIdeal.Facts₀.shapeCasts_S64_S1x64

theorem meanRow_at (s : FVec Ideal Cert.KernelIdeal.S1x64 .f32) (q : Fin 64) :
    meanRow s (ix2 (0 : Fin 1) q) = Ideal.div (s (ix2 (0 : Fin 1) q)) ((100000 : ℝ) : EReal) := by
  unfold meanRow
  refine (congrArg (FloatOps.hostDivf (s (ix2 (0 : Fin 1) q))) (broadcastInDim_apply _ Cert.KernelIdeal.Facts₀.bcast_S_S1x64
    (constant (F := Ideal) Cert.KernelIdeal.S_ .f32 0x47C35000#32) (ix2 (0 : Fin 1) q) (fun d => d.elim0) (fun d => d.elim0))).trans ?_
  show Ideal.div _ (Ideal.ofBits .f32 0x47C35000#32) = _
  rw [Cert.Gcn.ofBits_rows]

theorem varRow_at (s t : FVec Ideal Cert.KernelIdeal.S1x64 .f32) (q : Fin 64) :
    varRow s t (ix2 (0 : Fin 1) q)
      = Ideal.div (t (ix2 (0 : Fin 1) q)) ((100000 : ℝ) : EReal)
        - Ideal.div (s (ix2 (0 : Fin 1) q)) ((100000 : ℝ) : EReal) * Ideal.div (s (ix2 (0 : Fin 1) q)) ((100000 : ℝ) : EReal) := by
  unfold varRow
  show FloatOps.subf (meanRow t (ix2 (0 : Fin 1) q)) (FloatOps.mulf (meanRow s (ix2 (0 : Fin 1) q)) (meanRow s (ix2 (0 : Fin 1) q))) = _
  rw [meanRow_at, meanRow_at]
  rfl

theorem rowOf_at (v : FVec Ideal Cert.KernelIdeal.S64 .f32) (q : Fin 64) : rowOf v (ix2 (0 : Fin 1) q) = v (ix1 q) := by
  unfold rowOf
  refine (shapeCast_addUnit_apply ![64] v _ (ix2 (0 : Fin 1) q)).trans (congrArg v ?_)
  exact funext fun a => match a with | ⟨0, _⟩ => rfl

theorem colSum_at (h : (⟨2, ![100000, 64]⟩ : Shape).Idx → EReal) (q : Fin 64) :
    colSum h (ix2 (0 : Fin 1) q) = ∑ k : Fin 100000, h (ix2 k q) := rfl

theorem colSumSq_at (h : (⟨2, ![100000, 64]⟩ : Shape).Idx → EReal) (q : Fin 64) :
    colSumSq h (ix2 (0 : Fin 1) q) = ∑ k : Fin 100000, h (ix2 k q) * h (ix2 k q) := rfl

/-! ## The two forms agree on real columns -/

/-- With every entry of h = the first layer's output a real number, the kernel's step — on the column sums and the
    column sums of squares of h — is the reference's. -/
theorem step_eq (x0 : Feat) (x1 : (⟨S2x1600000, .i32⟩ : BufTy).Contents (Elt Ideal)) (x2 : Wt) (x3 : Vec64) (x4 x5 : Vec64) (hr : AllReal (val_main_v48 (F := Ideal) x0 x1 x2 x3)) :
    bnLeaky (val_main_v48 (F := Ideal) x0 x1 x2 x3) (meanRow (colSum (val_main_v48 (F := Ideal) x0 x1 x2 x3)))
        (varRow (colSum (val_main_v48 (F := Ideal) x0 x1 x2 x3)) (colSumSq (val_main_v48 (F := Ideal) x0 x1 x2 x3)))
        (rowOf x4) (rowOf x5)
      = val_main_v78 (F := Ideal) x0 x1 x2 x3 x4 x5 := by
  funext i
  obtain ⟨p, q, rfl⟩ : ∃ (p : Fin 100000) (q : Fin 64), i = ix2 p q := ⟨i 0, i 1, eq_ix2 i⟩
  rw [ref_out, ref_mean, ref_var]
  show leakyAt (hnAt _ (meanRow _ (ix2 (0 : Fin 1) q)) (varRow _ _ (ix2 (0 : Fin 1) q)) (rowOf x4 (ix2 (0 : Fin 1) q))
    (rowOf x5 (ix2 (0 : Fin 1) q))) = _
  rw [meanRow_at, varRow_at, rowOf_at, rowOf_at, colSum_at, colSumSq_at]
  have hv := var_forms_eq (fun k : Fin 100000 => val_main_v48 (F := Ideal) x0 x1 x2 x3 (ix2 k q))
    (fun k => hr (ix2 k q)) (100000 : ℝ) (by simp) (by norm_num)
  rw [← hv]

end Cert.Gcn.KBn

end
-- ==== Proof.RegLinear.lean ====
/-
  Regions 0 and 3: a dense layer's matrix product, computed block by block.

  Both regions run the same body over a grid of 20 points. At point t the body reads rows [5000 t, 5000 t + 5000) of a
  100000 × 64 feature array and the whole 64 × 64 weight, multiplies the two into a zero accumulator, and writes the
  5000 × 64 result over the same rows of the output array. On the extended reals the change of float format before the
  product is the identity, so entry (r, q) of a point's result is Σ_k x0(r,k) · x1(k,q): the entry (5000 t + r, q) of the
  product of the whole arrays. The twenty row blocks are disjoint and cover the 100000 rows, so when the region is over
  the output array holds, at every entry (p, q),  Σ_k A(p,k) · W(k,q)  of the arrays A, W the region found.

  Per region: the arithmetic of one point at an entry; where each window's block sits at point t; each loaded block as
  entries of its array; the point's result as the product restricted to its rows; what the point writes back; the cover
  of the array by the blocks; the array after the region.
-/
import proofs.«167711_j76802605187487_1_alg».proof.Proof.Gen.KernelIdeal.Frame
import proofs.«167711_j76802605187487_1_alg».proof.Proof.Spec
import proofs.«167711_j76802605187487_1_alg».proof.Proof.LibPlainDot
import Idealize.ShloMosaic.Lib.Pipeline.Value
import Idealize.ShloMosaic.Lib.ValueIdx

set_option maxRecDepth 16384

noncomputable section

namespace Cert.KernelIdeal.RegLinear

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The rectangles the body loads and stores through start at the origin of their buffers. -/
theorem off_zero : (![0, 0] : Fin 2 → Nat) = fun _ => 0 := funext fun a => by fin_cases a <;> rfl

variable (V : (c : Dev nD) → (b : Ref sig .tc) → Buf (Elt Ideal) ((c : Thread nD τ).loc b))

/-! ## Region 0: the dense product of `main_arg0` (100000 × 64) with `main_arg2` (64 × 64) -/

/-- One point's arithmetic at entry (r, q) of its 5000 × 64 block: the change of float format is the identity on the
    extended reals and the product into the zero accumulator is the sum over the 64 contracted columns
    Σ_k x0(r,k) · x1(k,q). -/
theorem pay0_apply (x0 : Vec Ideal S5000x64 .f32) (x1 : Vec Ideal S64x64 .f32) (r : Fin 5000) (q : Fin 64) :
    Gen.k0_pay1 x0 x1 (ix2 r q) = ∑ k : Fin 64, x0 (ix2 r k) * x1 (ix2 k q) := by
  unfold Gen.k0_pay1
  exact Cert.LibPlainDot.matmul_zero_apply dot_S5000x64_S64x64_S5000x64_1_0_0_1_n_n rfl none _ _ r q

/-- Where the three windows sit at grid point t: the features' block and the output's block are both block (t, 0) —
    rows [5000 t, 5000 t + 5000), all 64 columns —, and the weight's block is always block (0, 0), the whole matrix. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry x of the features' block at point t is entry (5000 t + x₀, x₁) of the feature array: a block's coordinate
    on an axis is block index × block size + the coordinate inside the block. -/
theorem feat0_apply (c : Dev nD) (t : Fin cfg0.N) (x : S5000x64.Idx) (i : S100000x64.Idx)
    (hi0 : (i 0).val = 5000 * t.val + (x 0).val) (hi1 : (i 1).val = (x 1).val) :
    (Gen.iblk0 V c 0 t : Vec Ideal S5000x64 .f32) x = (V c main_arg0 : S100000x64.Idx → EReal) i := by
  obtain ⟨e0, e1, -⟩ := idx_facts0 t
  unfold Gen.iblk0
  rw [View.read_apply]
  show V c main_arg0 _ = V c main_arg0 _
  congr 1
  funext a
  apply Fin.ext
  match a with
  | ⟨0, _⟩ => show win0_0.index t 0 * 5000 + 1 * (x 0).val = (i 0).val; rw [e0, hi0]; omega
  | ⟨1, _⟩ => show win0_0.index t 1 * 64 + 1 * (x 1).val = (i 1).val; rw [e1, hi1]; omega

/-- The weight's block at every point is the whole weight matrix. -/
theorem weight0_apply (c : Dev nD) (t : Fin cfg0.N) (x : S64x64.Idx) :
    (Gen.iblk0 V c 1 t : Vec Ideal S64x64 .f32) x = (V c main_arg2 : S64x64.Idx → EReal) x := by
  obtain ⟨-, -, e2, e3, -⟩ := idx_facts0 t
  unfold Gen.iblk0
  rw [View.read_apply]
  show V c main_arg2 _ = V c main_arg2 _
  congr 1
  funext a
  apply Fin.ext
  match a with
  | ⟨0, _⟩ => show win0_1.index t 0 * 64 + 1 * (x 0).val = (x 0).val; rw [e2]; omega
  | ⟨1, _⟩ => show win0_1.index t 1 * 64 + 1 * (x 1).val = (x 1).val; rw [e3]; omega

/-- One point's arithmetic is the dense product restricted to its rows: if x0 holds rows [5000 t, 5000 t + 5000) of A
    and x1 is W, then entry j of the result is entry (5000 t + j₀, j₁) of A · W — the same sum over k, term by term. -/
theorem pay0_linear (x0 : Vec Ideal S5000x64 .f32) (x1 : Vec Ideal S64x64 .f32)
    (A : S100000x64.Idx → EReal) (W : S64x64.Idx → EReal) (t : ℕ)
    (h0 : ∀ (x : S5000x64.Idx) (i : S100000x64.Idx),
      (i 0).val = 5000 * t + (x 0).val → (i 1).val = (x 1).val → x0 x = A i)
    (h1 : ∀ x : S64x64.Idx, x1 x = W x)
    (j : S5000x64.Idx) (i : S100000x64.Idx) (hi0 : (i 0).val = 5000 * t + (j 0).val) (hi1 : (i 1).val = (j 1).val) :
    Gen.k0_pay1 x0 x1 j = Cert.Gcn.linear A W i := by
  obtain ⟨r, q, rfl⟩ : ∃ (r : Fin 5000) (q : Fin 64), j = ix2 r q := ⟨j 0, j 1, eq_ix2 j⟩
  rw [pay0_apply]
  unfold Cert.Gcn.linear
  refine Finset.sum_congr rfl fun k _ => ?_
  rw [h0 (ix2 r k) (ix2 (i 0) k) hi0 rfl, h1]
  exact congrArg (A (ix2 (i 0) k) * ·) (congrArg W (funext fun a => by
    match a with
    | ⟨0, _⟩ => rfl
    | ⟨1, _⟩ => exact Fin.ext hi1.symm))

/-- What point t writes back to the output array is block t of the dense product of the arrays the region finds: the
    body's one store fills the whole staging block with its arithmetic of the two loaded blocks, which are rows
    [5000 t, 5000 t + 5000) of the features and the whole weight; the output's block t is those same rows. -/
theorem flushed0_eq (c : Dev nD) (t : Fin cfg0.N) :
    (Gen.dat0 (F := Ideal) V c).flushed 2 t
      = ((cfg0.win 2).blk t).view.read (Elt Ideal) (Cert.Gcn.linear (V c main_arg0) (V c main_arg2)) := by
  show (cfg0.win 2).cut (grid0.coords t) ((Gen.dat0 (F := Ideal) V c).after 2 t) = _
  rw [Gen.after0_2]
  unfold Gen.out0_2
  rw [View.canon_unit_zero off_zero]
  simp only [View.ld_unit_zero (S := S5000x64) off_zero, View.ld_unit_zero (S := S64x64) off_zero]
  obtain ⟨-, -, -, -, e4, e5⟩ := idx_facts0 t
  funext j
  show Gen.k0_pay1 (Gen.iblk0 V c 0 t) (Gen.iblk0 V c 1 t) j
    = Cert.Gcn.linear (V c main_arg0) (V c main_arg2) (((cfg0.win 2).blk t).view.emb j)
  refine pay0_linear _ _ _ _ t.val (fun x i h0 h1 => feat0_apply V c t x i h0 h1)
    (fun x => weight0_apply V c t x) j _ ?_ ?_
  · show win0_2.index t 0 * 5000 + 1 * (j 0).val = 5000 * t.val + (j 0).val
    rw [e4]; omega
  · show win0_2.index t 1 * 64 + 1 * (j 1).val = (j 1).val
    rw [e5]; omega

/-- An index of the output array is in point t's block iff, on each axis, it lies in the block's range
    [index × size, index × size + size). -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- The twenty row blocks cover the output array: row p lies in the block of point p / 5000 (100000 = 20 · 5000), and
    every block spans all 64 columns. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 :=
    ⟨⟨(i 0).val / 5000, by rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t 0 * 5000 ≤ (i 0).val ∧ (i 0).val < win0_2.index t 0 * 5000 + 5000
    rw [e4, ht]; omega
  | ⟨1, _⟩ =>
    show win0_2.index t 1 * 64 ≤ (i 1).val ∧ (i 1).val < win0_2.index t 1 * 64 + 64
    rw [e5]; omega

/-- After region 0 its output array is the dense product: entry (p, q) is Σ_k `main_arg0`(p,k) · `main_arg2`(k,q), of the
    arrays as the region finds them. Every point writes its block of that one function, and the blocks cover the array. -/
theorem final0 (c : Dev nD) :
    (Gen.dat0 (F := Ideal) V c).arrAt 2 cfg0.N = Cert.Gcn.linear (V c main_arg0) (V c main_arg2) :=
  (Gen.dat0 (F := Ideal) V c).arrAt_eq_of_cover 2 (Cert.Gcn.linear (V c main_arg0) (V c main_arg2))
    (fun t _ => flushed0_eq V c t) cover0

/-! ## Region 3: the dense product of `main_v58` (100000 × 64) with `main_arg6` (64 × 64) -/

/-- One point's arithmetic at entry (r, q) of its 5000 × 64 block: the change of float format is the identity on the
    extended reals, so is the reshape of a block to its own shape, and the product into the zero accumulator is the sum over the 64 contracted columns
    Σ_k x0(r,k) · x1(k,q). -/
theorem pay3_apply (x0 : Vec Ideal S5000x64 .f32) (x1 : Vec Ideal S64x64 .f32) (r : Fin 5000) (q : Fin 64) :
    Gen.k3_pay1 x0 x1 (ix2 r q) = ∑ k : Fin 64, x0 (ix2 r k) * x1 (ix2 k q) := by
  unfold Gen.k3_pay1
  simp only [shapeCast_self]
  exact Cert.LibPlainDot.matmul_zero_apply dot_S5000x64_S64x64_S5000x64_1_0_0_1_n_n rfl none _ _ r q

/-- Where the three windows sit at grid point t: the features' block and the output's block are both block (t, 0) —
    rows [5000 t, 5000 t + 5000), all 64 columns —, and the weight's block is always block (0, 0), the whole matrix. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry x of the features' block at point t is entry (5000 t + x₀, x₁) of the feature array: a block's coordinate
    on an axis is block index × block size + the coordinate inside the block. -/
theorem feat3_apply (c : Dev nD) (t : Fin cfg3.N) (x : S5000x64.Idx) (i : S100000x64.Idx)
    (hi0 : (i 0).val = 5000 * t.val + (x 0).val) (hi1 : (i 1).val = (x 1).val) :
    (Gen.iblk3 V c 0 t : Vec Ideal S5000x64 .f32) x = (V c main_v58 : S100000x64.Idx → EReal) i := by
  obtain ⟨e0, e1, -⟩ := idx_facts3 t
  unfold Gen.iblk3
  rw [View.read_apply]
  show V c main_v58 _ = V c main_v58 _
  congr 1
  funext a
  apply Fin.ext
  match a with
  | ⟨0, _⟩ => show win3_0.index t 0 * 5000 + 1 * (x 0).val = (i 0).val; rw [e0, hi0]; omega
  | ⟨1, _⟩ => show win3_0.index t 1 * 64 + 1 * (x 1).val = (i 1).val; rw [e1, hi1]; omega

/-- The weight's block at every point is the whole weight matrix. -/
theorem weight3_apply (c : Dev nD) (t : Fin cfg3.N) (x : S64x64.Idx) :
    (Gen.iblk3 V c 1 t : Vec Ideal S64x64 .f32) x = (V c main_arg6 : S64x64.Idx → EReal) x := by
  obtain ⟨-, -, e2, e3, -⟩ := idx_facts3 t
  unfold Gen.iblk3
  rw [View.read_apply]
  show V c main_arg6 _ = V c main_arg6 _
  congr 1
  funext a
  apply Fin.ext
  match a with
  | ⟨0, _⟩ => show win3_1.index t 0 * 64 + 1 * (x 0).val = (x 0).val; rw [e2]; omega
  | ⟨1, _⟩ => show win3_1.index t 1 * 64 + 1 * (x 1).val = (x 1).val; rw [e3]; omega

/-- One point's arithmetic is the dense product restricted to its rows: if x0 holds rows [5000 t, 5000 t + 5000) of A
    and x1 is W, then entry j of the result is entry (5000 t + j₀, j₁) of A · W — the same sum over k, term by term. -/
theorem pay3_linear (x0 : Vec Ideal S5000x64 .f32) (x1 : Vec Ideal S64x64 .f32)
    (A : S100000x64.Idx → EReal) (W : S64x64.Idx → EReal) (t : ℕ)
    (h0 : ∀ (x : S5000x64.Idx) (i : S100000x64.Idx),
      (i 0).val = 5000 * t + (x 0).val → (i 1).val = (x 1).val → x0 x = A i)
    (h1 : ∀ x : S64x64.Idx, x1 x = W x)
    (j : S5000x64.Idx) (i : S100000x64.Idx) (hi0 : (i 0).val = 5000 * t + (j 0).val) (hi1 : (i 1).val = (j 1).val) :
    Gen.k3_pay1 x0 x1 j = Cert.Gcn.linear A W i := by
  obtain ⟨r, q, rfl⟩ : ∃ (r : Fin 5000) (q : Fin 64), j = ix2 r q := ⟨j 0, j 1, eq_ix2 j⟩
  rw [pay3_apply]
  unfold Cert.Gcn.linear
  refine Finset.sum_congr rfl fun k _ => ?_
  rw [h0 (ix2 r k) (ix2 (i 0) k) hi0 rfl, h1]
  exact congrArg (A (ix2 (i 0) k) * ·) (congrArg W (funext fun a => by
    match a with
    | ⟨0, _⟩ => rfl
    | ⟨1, _⟩ => exact Fin.ext hi1.symm))

/-- What point t writes back to the output array is block t of the dense product of the arrays the region finds: the
    body's one store fills the whole staging block with its arithmetic of the two loaded blocks, which are rows
    [5000 t, 5000 t + 5000) of the features and the whole weight; the output's block t is those same rows. -/
theorem flushed3_eq (c : Dev nD) (t : Fin cfg3.N) :
    (Gen.dat3 (F := Ideal) V c).flushed 2 t
      = ((cfg3.win 2).blk t).view.read (Elt Ideal) (Cert.Gcn.linear (V c main_v58) (V c main_arg6)) := by
  show (cfg3.win 2).cut (grid3.coords t) ((Gen.dat3 (F := Ideal) V c).after 2 t) = _
  rw [Gen.after3_2]
  unfold Gen.out3_2
  rw [View.canon_unit_zero off_zero]
  simp only [View.ld_unit_zero (S := S5000x64) off_zero, View.ld_unit_zero (S := S64x64) off_zero]
  obtain ⟨-, -, -, -, e4, e5⟩ := idx_facts3 t
  funext j
  show Gen.k3_pay1 (Gen.iblk3 V c 0 t) (Gen.iblk3 V c 1 t) j
    = Cert.Gcn.linear (V c main_v58) (V c main_arg6) (((cfg3.win 2).blk t).view.emb j)
  refine pay3_linear _ _ _ _ t.val (fun x i h0 h1 => feat3_apply V c t x i h0 h1)
    (fun x => weight3_apply V c t x) j _ ?_ ?_
  · show win3_2.index t 0 * 5000 + 1 * (j 0).val = 5000 * t.val + (j 0).val
    rw [e4]; omega
  · show win3_2.index t 1 * 64 + 1 * (j 1).val = (j 1).val
    rw [e5]; omega

/-- An index of the output array is in point t's block iff, on each axis, it lies in the block's range
    [index × size, index × size + size). -/
theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v59).slice (win3_2.rect t)).set ↔ _
  rw [View.set_slice_whole, Rect.mem_set_unit]
  exact Iff.rfl

/-- The twenty row blocks cover the output array: row p lies in the block of point p / 5000 (100000 = 20 · 5000), and
    every block spans all 64 columns. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 :=
    ⟨⟨(i 0).val / 5000, by rw [hN]; omega⟩, rfl⟩
  obtain ⟨-, -, -, -, e4, e5⟩ := idx_facts3 t
  refine ⟨t, flush3_2 t, ?_⟩
  rw [mem_blk3]
  intro a
  match a with
  | ⟨0, _⟩ =>
    show win3_2.index t 0 * 5000 ≤ (i 0).val ∧ (i 0).val < win3_2.index t 0 * 5000 + 5000
    rw [e4, ht]; omega
  | ⟨1, _⟩ =>
    show win3_2.index t 1 * 64 ≤ (i 1).val ∧ (i 1).val < win3_2.index t 1 * 64 + 64
    rw [e5]; omega

/-- After region 3 its output array is the dense product: entry (p, q) is Σ_k `main_v58`(p,k) · `main_arg6`(k,q), of the
    arrays as the region finds them. Every point writes its block of that one function, and the blocks cover the array. -/
theorem final3 (c : Dev nD) :
    (Gen.dat3 (F := Ideal) V c).arrAt 2 cfg3.N = Cert.Gcn.linear (V c main_v58) (V c main_arg6) :=
  (Gen.dat3 (F := Ideal) V c).arrAt_eq_of_cover 2 (Cert.Gcn.linear (V c main_v58) (V c main_arg6))
    (fun t _ => flushed3_eq V c t) cover3

end Cert.KernelIdeal.RegLinear

end
-- ==== Proof.LibScatterSum.lean ====
/-
  Two general facts for comparing a blocked, dense computation with a gather / scatter-add formulation of the
  same sums. Nothing here mentions a program.

  * Over the extended reals the host's accumulating float scatter is, at each element, the operand's element plus
    the sum of the updates whose result index is that element. When those updates are exactly the image of an
    injective enumeration `g` (for a dense edge list: the edges with a given target, enumerated by their source),
    the sum is a plain sum over the enumeration.
  * A sum over `m * n` consecutive rows is the sum over the `m` blocks of the sums over each block's `n` rows.
-/
import Idealize.ShloMosaic.PureOps.Ideal
import Mathlib.Algebra.BigOperators.Fin
import Mathlib.Logic.Equiv.Fin.Basic

noncomputable section

namespace Cert.Lib.ScatterSum

open Idealize.ShloMosaic

/-- The accumulating scatter at element `i`, when the updates landing on `i` are enumerated without repetition by
    `g`: the operand's element plus the sum of those updates. -/
theorem hostScatterAdd_apply_of_fiber {s si su : Shape} (d : ScatterDims s si su) {w : Nat} (x : s.Idx → EReal)
    (idx : IVec si w) (upd : su.Idx → EReal) (i : s.Idx) {κ : Type*} [Fintype κ] (g : κ → su.Idx)
    (hg : Function.Injective g) (h : ∀ j, d.resultIdx? j idx = some i ↔ ∃ k, g k = j) :
    Ideal.hostScatterAdd d x idx upd i = x i + ∑ k, upd (g k) := by
  classical
  unfold Ideal.hostScatterAdd
  have e : (Finset.univ.filter fun j => d.resultIdx? j idx = some i) = Finset.univ.image g := by
    ext j
    simp only [Finset.mem_filter, Finset.mem_univ, true_and, Finset.mem_image, h]
  have e' : (∑ j ∈ Finset.univ.filter (fun j => d.resultIdx? j idx = some i), upd j) = ∑ k, upd (g k) := by
    rw [← Finset.sum_image (s := Finset.univ) (g := g) (f := upd) (fun a _ b _ hab => hg hab), ← e]
  exact congrArg (x i + ·) e'

/-- Row `i` of block `b` is a row of the whole. -/
theorem block_row_lt {m n b i : ℕ} (hb : b < m) (hi : i < n) : b * n + i < m * n :=
  calc b * n + i < b * n + n := Nat.add_lt_add_left hi _
    _ = (b + 1) * n := by ring
    _ ≤ m * n := Nat.mul_le_mul_right _ hb

/-- A sum over `m * n` rows, block by block. -/
theorem sum_blocks {M : Type*} [AddCommMonoid M] (m n : ℕ) (f : Fin (m * n) → M) :
    ∑ k, f k = ∑ b : Fin m, ∑ i : Fin n, f ⟨b.val * n + i.val, block_row_lt b.isLt i.isLt⟩ := by
  rw [← Equiv.sum_comp finProdFinEquiv f, Fintype.sum_prod_type]
  refine Finset.sum_congr rfl fun b _ => Finset.sum_congr rfl fun i _ => congrArg f (Fin.ext ?_)
  simp only [finProdFinEquiv_apply_val]
  ring

end Cert.Lib.ScatterSum

end
-- ==== Proof.RegStats.lean ====
/-
  The statistics region: the rows of column sums and of column sums of squares.

  The region walks a grid of 20 points. At point t its input window presents block t of the array h it reads: rows
  5000 t … 5000 t + 4999, all 64 columns. Its two outputs are 1 × 64 rows whose one block never moves, so each is carried
  from point to point in its buffer and written back once, after the last point. At the first point both rows are set to
  zero before the block is added; at every other point the block is added to what the point before left:
      s(q) ← s(q) + Σ_r blk(r, q) ,      ss(q) ← ss(q) + Σ_r blk(r, q)² .
  Hence after point n the rows hold, at column q, the sums over blocks 0 … n (induction on the point), and after the last
  point  ((0 + S₀) + S₁) + … + S₁₉ , which regroups into one sum over the 100000 = 20 · 5000 rows of h. Addition of
  extended reals is commutative and associative, so no entry need be finite.
-/
import proofs.«167711_j76802605187487_1_alg».proof.Proof.Gen.KernelIdeal.Frame
import proofs.«167711_j76802605187487_1_alg».proof.Proof.Spec
import proofs.«167711_j76802605187487_1_alg».proof.Proof.LibScatterSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.RegStats

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

/-! ## What each case of the body leaves in the two rows -/

section Pieces
variable {F : FTy → Type} [FloatOps F]

/-- The zero offsets of a whole-block access, however they are spelt. -/
theorem hz : (![0, 0] : Fin 2 → Nat) = fun _ => 0 := funext fun a => by fin_cases a <;> rfl

/-- Away from the first point the first row, holding `xo1`, is left at `xo1` plus the column sums of the input block
    `x`: one store of the whole 1 × 64 block, whose operands are read off whole buffers. -/
theorem out_B_1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S5000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero hz]
  simp only [View.readAt_eq_ld, h1.read_unread, h2.read_unread, View.ld_unit_zero (S := S5000x64) hz,
    View.ld_unit_zero (S := S1x64) hz]

/-- Likewise the second row, holding `xo2`, is left at `xo2` plus the column sums of squares of `x`. -/
theorem out_B_2 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S5000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz]
  simp only [View.readAt_eq_ld, h1.read_unread, h3.read_unread, View.ld_unit_zero (S := S5000x64) hz,
    View.ld_unit_zero (S := S1x64) hz]

/-- At the first point the first row is set to zero, read back, and left at the zero row plus the column sums of `x`:
    the later store covers the block, and what is read back after the zeroing store is the zero row. -/
theorem out_A_1 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S5000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S5000x64) hz]

/-- Likewise the second row is left at the zero row plus the column sums of squares of `x`. -/
theorem out_A_2 (c : Dev nD) (i : grid1.Coords) (a1 : Memref sig .tc .vmem S5000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S5000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S5000x64) hz]

end Pieces

/-! ## The payloads at an entry, over the extended reals -/

section Payloads

/-- A lane reduction `<add>` over axis 0 of a 5000 × 64 block, at column `q`: the sum over the block's 5000 rows. -/
theorem laneSum_apply (src : FVec Ideal S5000x64 .f32) (hφ : FKind.Formats .f32)
    (hacc : (0x00000000#32 : BitVec 32) = FKind.add.neutral .f32 hφ) (q : Fin 64) :
    multiReduction .add [0] S64 src 0x00000000#32 reduces_S5000x64_S64 hφ hacc (ix1 q) = ∑ r : Fin 5000, src (ix2 r q) := by
  refine (Ideal.multiReduction_add_single src 0x00000000#32 reduces_S5000x64_S64 hφ hacc (ix1 q)).trans ?_
  refine Finset.sum_congr rfl fun r _ => congrArg src ?_
  funext a
  match a with
  | ⟨0, _⟩ => rfl
  | ⟨1, _⟩ => rfl

/-- The cast of the loaded block to its own shape is the block. -/
theorem pay3_eq (x : Vec Ideal S5000x64 .f32) : k1_pay3 x = x := by
  unfold k1_pay3
  exact shapeCast_self x _

/-- The zero row the first point stores (both outputs). -/
theorem pay1_apply (j : S1x64.Idx) : k1_pay1 (F := Ideal) j = 0 := by
  unfold k1_pay1
  exact Ideal.ofBits_zero_f32
theorem pay2_apply (j : S1x64.Idx) : k1_pay2 (F := Ideal) j = 0 := by
  unfold k1_pay2
  exact Ideal.ofBits_zero_f32

/-- The first row's update at column `q`: the row carried so far plus the sum of the block's column `q`. -/
theorem pay4_apply (x : Vec Ideal S5000x64 .f32) (p : Vec Ideal S1x64 .f32) (u : Fin 1) (q : Fin 64) :
    k1_pay4 x p (ix2 u q) = p (ix2 u q) + ∑ r : Fin 5000, x (ix2 r q) := by
  unfold k1_pay4
  dsimp only
  refine (addf_apply _ _ (ix2 u q)).trans ?_
  refine congrArg₂ (· + ·) ?_ ?_
  · exact congrFun (shapeCast_self p _) _
  · refine (shapeCast_a_1a_apply _ _ u q).trans ?_
    rw [pay3_eq]
    exact laneSum_apply x _ _ q

/-- The second row's update at column `q`: the row carried so far plus the sum of the squares of the block's column `q`. -/
theorem pay5_apply (x : Vec Ideal S5000x64 .f32) (p : Vec Ideal S1x64 .f32) (u : Fin 1) (q : Fin 64) :
    k1_pay5 x p (ix2 u q) = p (ix2 u q) + ∑ r : Fin 5000, x (ix2 r q) * x (ix2 r q) := by
  unfold k1_pay5
  dsimp only
  refine (addf_apply _ _ (ix2 u q)).trans ?_
  refine congrArg₂ (· + ·) ?_ ?_
  · exact congrFun (shapeCast_self p _) _
  · refine (shapeCast_a_1a_apply _ _ u q).trans ?_
    rw [pay3_eq]
    exact (laneSum_apply (mulf x x) _ _ q).trans (Finset.sum_congr rfl fun r _ => mulf_apply x x _)

end Payloads

/-! ## The carried rows, point by point -/

section Carried
variable {F : FTy → Type} [FloatOps F]
variable (V : (c : Dev nD) → (b : Ref sig .tc) → Buf (Elt F) ((c : Thread nD τ).loc b))

/-- After the first point the rows hold the update of the zero row by block 0. -/
theorem outs_A_1 (c : Dev nD) (t : Fin cfg1.N) (h0 : t.val % 20 = 0) :
    (outsAt1 V c t.val t.isLt).1 = k1_pay4 (iblk1 V c 0 t) k1_pay1 :=
  (congrArg Prod.fst (outsAt1_A V c t h0)).trans
    (out_A_1 c (grid1.coords t) (ms1_0 t) (hs1_0 t) (ms1_1 t) (hs1_1 t) (ms1_2 t) (hs1_2 t) ((hcond1_0 t).mpr h0) (iblk1 V c 0 t))

theorem outs_A_2 (c : Dev nD) (t : Fin cfg1.N) (h0 : t.val % 20 = 0) :
    (outsAt1 V c t.val t.isLt).2 = k1_pay5 (iblk1 V c 0 t) k1_pay2 :=
  (congrArg Prod.snd (outsAt1_A V c t h0)).trans
    (out_A_2 c (grid1.coords t) (ms1_0 t) (hs1_0 t) (ms1_1 t) (hs1_1 t) (ms1_2 t) (hs1_2 t) ((hcond1_0 t).mpr h0) (iblk1 V c 0 t))

/-- After any later point they hold the update, by that point's block, of what the point before left. -/
theorem outs_B_1 (c : Dev nD) (t : Fin cfg1.N) (h0 : ¬t.val % 20 = 0) :
    (outsAt1 V c t.val t.isLt).1
      = k1_pay4 (iblk1 V c 0 t) (outsAt1 V c (t.val - 1) (Nat.lt_of_le_of_lt (Nat.sub_le _ _) t.isLt)).1 :=
  (congrArg Prod.fst (outsAt1_B V c t h0)).trans
    (out_B_1 c (grid1.coords t) (ms1_0 t) (hs1_0 t) (ms1_1 t) (hs1_1 t) (ms1_2 t) (hs1_2 t) (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2)

theorem outs_B_2 (c : Dev nD) (t : Fin cfg1.N) (h0 : ¬t.val % 20 = 0) :
    (outsAt1 V c t.val t.isLt).2
      = k1_pay5 (iblk1 V c 0 t) (outsAt1 V c (t.val - 1) (Nat.lt_of_le_of_lt (Nat.sub_le _ _) t.isLt)).2 :=
  (congrArg Prod.snd (outsAt1_B V c t h0)).trans
    (out_B_2 c (grid1.coords t) (ms1_0 t) (hs1_0 t) (ms1_1 t) (hs1_1 t) (ms1_2 t) (hs1_2 t) (fun h => h0 ((hcond1_0 t).mp h)) (iblk1 V c 0 t)
      (outsAt1 V c (t.val - 1) (Nat.lt_of_le_of_lt (Nat.sub_le _ _) t.isLt)).1
      (outsAt1 V c (t.val - 1) (Nat.lt_of_le_of_lt (Nat.sub_le _ _) t.isLt)).2)

end Carried

/-! ## The running sums over the extended reals -/

section Sums
variable (V : (c : Dev nD) → (b : Ref sig .tc) → Buf (Elt Ideal) ((c : Thread nD τ).loc b))

theorem N20 : cfg1.N = 20 := N_1

/-- Block `t` of the input window starts at row `5000 t`, column 0. -/
theorem idx_in : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The array the region reads, by (row, column). -/
abbrev harr (c : Dev nD) : S100000x64.Idx → EReal := V c main_v48

/-- Block `t` of it as the input window presents it: 5000 rows, 64 columns. -/
abbrev blk (c : Dev nD) (t : Fin cfg1.N) : Vec Ideal S5000x64 .f32 := iblk1 V c 0 t

/-- Entry (r, q) of block `t` is entry (5000 t + r, q) of the array. -/
theorem iblk_apply (c : Dev nD) (t : Fin cfg1.N) (r : Fin 5000) (q : Fin 64) (hk : t.val * 5000 + r.val < 100000) :
    blk V c t (ix2 r q)
      = harr V c (ix2 (⟨t.val * 5000 + r.val, hk⟩ : Fin 100000) q) := by
  unfold blk harr iblk1
  rw [View.read_apply]
  show V c main_v48 _ = V c main_v48 _
  congr 1
  funext a
  apply Fin.ext
  match a with
  | ⟨0, _⟩ => show win1_0.index t 0 * 5000 + 1 * r.val = t.val * 5000 + r.val; rw [(idx_in t).1]; omega
  | ⟨1, _⟩ => show win1_0.index t 1 * 64 + 1 * q.val = q.val; rw [(idx_in t).2]; omega

/-- The sum of column `q` over the rows of block `b` (zero past the grid). -/
def blockSum (c : Dev nD) (q : Fin 64) (b : ℕ) : EReal :=
  if h : b < cfg1.N then ∑ r : Fin 5000, blk V c ⟨b, h⟩ (ix2 r q) else 0

/-- The sum of the squares of column `q` over the rows of block `b` (zero past the grid). -/
def blockSumSq (c : Dev nD) (q : Fin 64) (b : ℕ) : EReal :=
  if h : b < cfg1.N then ∑ r : Fin 5000, blk V c ⟨b, h⟩ (ix2 r q)
    * blk V c ⟨b, h⟩ (ix2 r q) else 0

/-- After point `n` the first output's row holds, at column `q`, the sum of column `q` over blocks 0 … n:
    zero plus block 0's sum at the first point, the row before plus block n's sum at every other. -/
theorem sum_inv (c : Dev nD) : ∀ (n : ℕ) (h : n < cfg1.N) (u : Fin 1) (q : Fin 64),
    ((outsAt1 V c n h).1 : Vec Ideal S1x64 .f32) (ix2 u q) = ∑ b ∈ Finset.range (n + 1), blockSum V c q b
  | 0, h, u, q => by
    refine (congrFun (outs_A_1 V c ⟨0, h⟩ rfl) (ix2 u q)).trans ?_
    refine (pay4_apply _ _ u q).trans ?_
    rw [pay1_apply, zero_add, Finset.sum_range_one]
    unfold blockSum
    rw [dif_pos h]
  | n + 1, h, u, q => by
    have hN : cfg1.N = 20 := N_1
    have hB : ¬(⟨n + 1, h⟩ : Fin cfg1.N).val % 20 = 0 := by dsimp only; omega
    refine (congrFun (outs_B_1 V c ⟨n + 1, h⟩ hB) (ix2 u q)).trans ?_
    refine (pay4_apply _ _ u q).trans ?_
    rw [Finset.sum_range_succ _ (n + 1)]
    refine congrArg₂ (· + ·) (sum_inv c n (Nat.lt_of_succ_lt h) u q) ?_
    unfold blockSum
    rw [dif_pos h]

/-- Likewise the second output's row holds the sum of the squares of column `q` over blocks 0 … n. -/
theorem sumsq_inv (c : Dev nD) : ∀ (n : ℕ) (h : n < cfg1.N) (u : Fin 1) (q : Fin 64),
    ((outsAt1 V c n h).2 : Vec Ideal S1x64 .f32) (ix2 u q) = ∑ b ∈ Finset.range (n + 1), blockSumSq V c q b
  | 0, h, u, q => by
    refine (congrFun (outs_A_2 V c ⟨0, h⟩ rfl) (ix2 u q)).trans ?_
    refine (pay5_apply _ _ u q).trans ?_
    rw [pay2_apply, zero_add, Finset.sum_range_one]
    unfold blockSumSq
    rw [dif_pos h]
  | n + 1, h, u, q => by
    have hN : cfg1.N = 20 := N_1
    have hB : ¬(⟨n + 1, h⟩ : Fin cfg1.N).val % 20 = 0 := by dsimp only; omega
    refine (congrFun (outs_B_2 V c ⟨n + 1, h⟩ hB) (ix2 u q)).trans ?_
    refine (pay5_apply _ _ u q).trans ?_
    rw [Finset.sum_range_succ _ (n + 1)]
    refine congrArg₂ (· + ·) (sumsq_inv c n (Nat.lt_of_succ_lt h) u q) ?_
    unfold blockSumSq
    rw [dif_pos h]

/-- Block `b`'s sum, over the array's own rows 5000 b … 5000 b + 4999. -/
theorem blockSum_eq (c : Dev nD) (q : Fin 64) (b : Fin 20) :
    blockSum V c q b.val = ∑ r : Fin 5000, harr V c
      (ix2 (⟨b.val * 5000 + r.val, Cert.Lib.ScatterSum.block_row_lt b.isLt r.isLt⟩ : Fin 100000) q) := by
  unfold blockSum
  rw [dif_pos (lt_of_lt_of_eq b.isLt N20.symm)]
  exact Finset.sum_congr rfl fun r _ => iblk_apply V c ⟨b.val, lt_of_lt_of_eq b.isLt N20.symm⟩ r q _

theorem blockSumSq_eq (c : Dev nD) (q : Fin 64) (b : Fin 20) :
    blockSumSq V c q b.val = ∑ r : Fin 5000, harr V c
        (ix2 (⟨b.val * 5000 + r.val, Cert.Lib.ScatterSum.block_row_lt b.isLt r.isLt⟩ : Fin 100000) q)
      * harr V c
        (ix2 (⟨b.val * 5000 + r.val, Cert.Lib.ScatterSum.block_row_lt b.isLt r.isLt⟩ : Fin 100000) q) := by
  unfold blockSumSq
  rw [dif_pos (lt_of_lt_of_eq b.isLt N20.symm)]
  exact Finset.sum_congr rfl fun r _ => by
    rw [iblk_apply V c ⟨b.val, lt_of_lt_of_eq b.isLt N20.symm⟩ r q (Cert.Lib.ScatterSum.block_row_lt b.isLt r.isLt)]

/-- The twenty blocks' sums are the sum over all 100000 = 20 · 5000 rows. -/
theorem total_sum (c : Dev nD) (q : Fin 64) :
    ∑ b ∈ Finset.range 20, blockSum V c q b = ∑ k : Fin 100000, harr V c (ix2 k q) :=
  (Finset.sum_range _).trans ((Finset.sum_congr rfl fun b _ => blockSum_eq V c q b).trans
    (Cert.Lib.ScatterSum.sum_blocks 20 5000 (fun k : Fin (20 * 5000) => harr V c (ix2 (k : Fin 100000) q))).symm)

theorem total_sumsq (c : Dev nD) (q : Fin 64) :
    ∑ b ∈ Finset.range 20, blockSumSq V c q b = ∑ k : Fin 100000, harr V c (ix2 k q)
      * harr V c (ix2 k q) :=
  (Finset.sum_range _).trans ((Finset.sum_congr rfl fun b _ => blockSumSq_eq V c q b).trans
    (Cert.Lib.ScatterSum.sum_blocks 20 5000 (fun k : Fin (20 * 5000) => harr V c (ix2 (k : Fin 100000) q)
      * harr V c (ix2 (k : Fin 100000) q))).symm)

/-- So after the last point the first output's row is the row of column sums, -/
theorem last_sum (c : Dev nD) (h : 19 < cfg1.N) :
    ((outsAt1 V c 19 h).1 : Vec Ideal S1x64 .f32) = Cert.Gcn.colSum (harr V c) := by
  funext j
  obtain ⟨u, q, rfl⟩ : ∃ (u : Fin 1) (q : Fin 64), j = ix2 u q := ⟨j 0, j 1, eq_ix2 j⟩
  exact (sum_inv V c 19 h u q).trans (total_sum V c q)

/-- and the second output's the row of column sums of squares. -/
theorem last_sumsq (c : Dev nD) (h : 19 < cfg1.N) :
    ((outsAt1 V c 19 h).2 : Vec Ideal S1x64 .f32) = Cert.Gcn.colSumSq (harr V c) := by
  funext j
  obtain ⟨u, q, rfl⟩ : ∃ (u : Fin 1) (q : Fin 64), j = ix2 u q := ⟨j 0, j 1, eq_ix2 j⟩
  exact (sumsq_inv V c 19 h u q).trans (total_sumsq V c q)

end Sums

/-! ## The two result arrays after the region -/

section Final
variable (V : (c : Dev nD) → (b : Ref sig .tc) → Buf (Elt Ideal) ((c : Thread nD τ).loc b))

/-- Each output window's one block sits at its array's origin, at every point. -/
theorem idx_out1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx_out2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- The last point, the only one that writes the outputs back. -/
abbrev tLast : Fin cfg1.N := ⟨19, lt_of_lt_of_eq (by decide) N20.symm⟩

/-- What the last point leaves in the first output's buffer: the row of column sums. -/
theorem after_sum (c : Dev nD) (t : Fin cfg1.N) (h19 : t.val = 19) :
    ((outsAt1 V c t.val t.isLt).1 : Vec Ideal S1x64 .f32) = Cert.Gcn.colSum (harr V c) := by
  obtain ⟨n, hn⟩ := t
  dsimp only at h19
  subst h19
  exact last_sum V c hn

theorem after_sumsq (c : Dev nD) (t : Fin cfg1.N) (h19 : t.val = 19) :
    ((outsAt1 V c t.val t.isLt).2 : Vec Ideal S1x64 .f32) = Cert.Gcn.colSumSq (harr V c) := by
  obtain ⟨n, hn⟩ := t
  dsimp only at h19
  subst h19
  exact last_sumsq V c hn

/-- The one write-back of the first output writes that row: its block, at the origin, is the whole 1 × 64 array. -/
theorem flushed_sum (c : Dev nD) (t : Fin cfg1.N) (hf : (cfg1.win 1).flush t = true) :
    (dat1 V c).flushed 1 t = ((cfg1.win 1).blk t).view.read (Elt Ideal) (Cert.Gcn.colSum (harr V c)) := by
  have hN : cfg1.N = 20 := N_1
  have h19 : t.val = 19 := by have := (flush1_1 t).mp hf; have := t.isLt; omega
  show (cfg1.win 1).cut (grid1.coords t) ((dat1 V c).after 1 t) = _
  rw [after1_1, after_sum V c t h19]
  have hz' : (fun a => win1_1.index t a * main_v49_0.ty.shape.size a) = fun _ => 0 :=
    funext fun a => by
      match a with
      | ⟨0, _⟩ => show win1_1.index t 0 * _ = 0; rw [(idx_out1 t).1, Nat.zero_mul]
      | ⟨1, _⟩ => show win1_1.index t 1 * _ = 0; rw [(idx_out1 t).2, Nat.zero_mul]
  exact (Memref.read_access_unit_zero (Elt Ideal) main_v49_0 hz' (fun a => by rw [congrFun hz' a]; simp) (Cert.Gcn.colSum (harr V c))).symm

theorem flushed_sumsq (c : Dev nD) (t : Fin cfg1.N) (hf : (cfg1.win 2).flush t = true) :
    (dat1 V c).flushed 2 t = ((cfg1.win 2).blk t).view.read (Elt Ideal) (Cert.Gcn.colSumSq (harr V c)) := by
  have hN : cfg1.N = 20 := N_1
  have h19 : t.val = 19 := by have := (flush1_2 t).mp hf; have := t.isLt; omega
  show (cfg1.win 2).cut (grid1.coords t) ((dat1 V c).after 2 t) = _
  rw [after1_2, after_sumsq V c t h19]
  have hz' : (fun a => win1_2.index t a * main_v49_1.ty.shape.size a) = fun _ => 0 :=
    funext fun a => by
      match a with
      | ⟨0, _⟩ => show win1_2.index t 0 * _ = 0; rw [(idx_out2 t).1, Nat.zero_mul]
      | ⟨1, _⟩ => show win1_2.index t 1 * _ = 0; rw [(idx_out2 t).2, Nat.zero_mul]
  exact (Memref.read_access_unit_zero (Elt Ideal) main_v49_1 hz' (fun a => by rw [congrFun hz' a]; simp) (Cert.Gcn.colSumSq (harr V c))).symm

/-- After the region the first result array is the row of column sums of the array the region read. -/
theorem final_sum (c : Dev nD) : (Gen.dat1 (F := Ideal) V c).arrAt 1 cfg1.N = Cert.Gcn.colSum (V c main_v48) :=
  (dat1 V c).arrAt_eq_of_cover 1 (Cert.Gcn.colSum (harr V c)) (flushed_sum V c) fun i =>
    ⟨tLast, (flush1_1 tLast).mpr rfl, by
      show i ∈ ((View.whole main_v49_0).slice (win1_1.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win1_1.index tLast 0 * 1 ≤ (i 0 : Nat) ∧ (i 0 : Nat) < win1_1.index tLast 0 * 1 + 1
        rw [(idx_out1 tLast).1]; omega
      | ⟨1, _⟩ =>
        show win1_1.index tLast 1 * 64 ≤ (i 1 : Nat) ∧ (i 1 : Nat) < win1_1.index tLast 1 * 64 + 64
        rw [(idx_out1 tLast).2]; omega⟩

/-- And the second result array is the row of column sums of squares. -/
theorem final_sumsq (c : Dev nD) : (Gen.dat1 (F := Ideal) V c).arrAt 2 cfg1.N = Cert.Gcn.colSumSq (V c main_v48) :=
  (dat1 V c).arrAt_eq_of_cover 2 (Cert.Gcn.colSumSq (harr V c)) (flushed_sumsq V c) fun i =>
    ⟨tLast, (flush1_2 tLast).mpr rfl, by
      show i ∈ ((View.whole main_v49_1).slice (win1_2.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win1_2.index tLast 0 * 1 ≤ (i 0 : Nat) ∧ (i 0 : Nat) < win1_2.index tLast 0 * 1 + 1
        rw [(idx_out2 tLast).1]; omega
      | ⟨1, _⟩ =>
        show win1_2.index tLast 1 * 64 ≤ (i 1 : Nat) ∧ (i 1 : Nat) < win1_2.index tLast 1 * 64 + 64
        rw [(idx_out2 tLast).2]; omega⟩

end Final

end Cert.KernelIdeal.RegStats

end
-- ==== Proof.RegNorm.lean ====
/- The step between the two layers, as region 2 of the program (the normalise-and-rectify call) computes it.

   The region walks 20 points. At point t it holds rows 5000·t … 5000·t + 4999 (all 64 columns) of the first layer's
   output h, together with the whole 1 × 64 rows of the column means μ, the column variances v, the scale γ and the
   shift β, and it writes rows 5000·t … 5000·t + 4999 of the result. Inside a block the arithmetic is entry by entry:
       hn(r,q) = γ_q · (h(r,q) − μ_q) · (v_q + ε)^(-1/2) + β_q ,   out(r,q) = hn(r,q) if hn(r,q) ≥ 0, else slope · hn(r,q),
   where a 1 × 64 row is read at column q whatever the row r. Entry (p, q) of the result therefore depends on h(p, q)
   and on column q of the four rows only, and the 20 row blocks tile the 100000 rows, so the result is the function
   `Cert.Gcn.bnLeaky` of the five arrays the region finds on entry. No algebraic law is needed: the products and the
   sum are in the order the shared definition writes them. -/
import proofs.«167711_j76802605187487_1_alg».proof.Proof.Gen.KernelIdeal.Frame
import proofs.«167711_j76802605187487_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.RegNorm

open Idealize.ShloMosaic Idealize.ShloMosaic.TcCoe
open Idealize.ShloMosaic.Pipeline (Dat)
open Idealize.ShloMosaic.ValueIdx
open Cert.KernelIdeal

/-! ## One entry of a block -/

/-- The body's arithmetic at row r, column q of a block: the block of h is read at (r, q); each of the four 1 × 64
    rows is read at (0, q), whatever r is, because a row spread over 5000 rows repeats itself; every reshaping in the
    body keeps the shape and so is the identity. What is left is the normalised entry followed by the leaky rectifier,
    with the factors in the order γ · (h − μ) · (v + ε)^(-1/2). -/
theorem pay_at (x0 : Vec Ideal S5000x64 .f32) (x1 x2 x3 x4 : Vec Ideal S1x64 .f32) (r : Fin 5000) (q : Fin 64) :
    Gen.k2_pay1 x0 x1 x2 x3 x4 (ix2 r q)
      = Cert.Gcn.leakyAt (Cert.Gcn.hnAt (x0 (ix2 r q)) (x1 (ix2 (0 : Fin 1) q)) (x2 (ix2 (0 : Fin 1) q))
          (x3 (ix2 (0 : Fin 1) q)) (x4 (ix2 (0 : Fin 1) q))) := by
  unfold Gen.k2_pay1
  simp only [shapeCast_self]
  simp only [select_apply, cmpf_apply, mulf_apply, addf_apply, subf_apply, broadcast_apply,
    broadcastTo_1b_ab_apply]
  rfl

/-- The same entry against whole arrays: if the block of h at y is the array h at i, the index i has y's column, and
    the four rows held are the four arrays μ, v, γ, β, then the body's entry at y is the specified step at i. Only the
    column of i enters through the four rows. -/
theorem entry_eq (h : S100000x64.Idx → EReal) (μ v g b : S1x64.Idx → EReal)
    (x0 : Vec Ideal S5000x64 .f32) (x1 x2 x3 x4 : Vec Ideal S1x64 .f32)
    (y : S5000x64.Idx) (i : S100000x64.Idx)
    (hcol : (i 1).val = (y 1).val)
    (e0 : x0 y = h i) (e1 : x1 = μ) (e2 : x2 = v) (e3 : x3 = g) (e4 : x4 = b) :
    Gen.k2_pay1 x0 x1 x2 x3 x4 y = Cert.Gcn.bnLeaky h μ v g b i := by
  subst e1 e2 e3 e4
  obtain ⟨r, q, rfl⟩ : ∃ (r : Fin 5000) (q : Fin 64), y = ix2 r q := ⟨y 0, y 1, eq_ix2 y⟩
  have hq : (ix2 (0 : Fin 1) (i 1) : S1x64.Idx) = ix2 (0 : Fin 1) q := by
    funext a
    match a with
    | ⟨0, _⟩ => rfl
    | ⟨1, _⟩ => exact Fin.ext hcol
  rw [pay_at, e0]
  unfold Cert.Gcn.bnLeaky
  rw [hq]

/-! ## Which rows a point holds -/

/-- A block that starts at the buffer's origin. -/
theorem origin : (![0, 0] : Fin 2 → Nat) = fun _ => 0 := funext fun a => by fin_cases a <;> rfl

/-- The block indices at point t: the block of h and the block of the result are both block (t, 0), that is rows
    5000·t onwards; each of the four 1 × 64 rows is block (0, 0), the whole row, at every point. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-! ## What a point writes back -/

/-- Point t writes back rows 5000·t … 5000·t + 4999 of the specified step of the five arrays found on entry. An
    element of a block sits in its array at (block index × block size + its coordinate inside the block) on each axis;
    so entry (r, q) of the block of h and entry (r, q) of the result's block are the same array position
    (5000·t + r, q), and a 1 × 64 row read as block (0, 0) is the row itself. -/
theorem written_eq (c : Dev nD) (t : Fin cfg2.N) :
    (Gen.dat2 (F := Ideal) V c).flushed 5 t
      = ((cfg2.win 5).blk t).view.read (Elt Ideal)
          (Cert.Gcn.bnLeaky (V c main_v48) (V c main_v51) (V c main_v55) (V c main_v56) (V c main_v57)) := by
  show (cfg2.win 5).cut (grid2.coords t) ((Gen.dat2 (F := Ideal) V c).after 5 t) = _
  rw [Gen.after2_5]
  unfold Gen.out2_5
  rw [View.canon_unit_zero origin]
  simp only [View.ld_unit_zero (S := S5000x64) origin, View.ld_unit_zero (S := S1x64) origin]
  obtain ⟨a0, a1, b0, b1, c0, c1, d0, d1, f0, f1, g0, g1⟩ := block_index t
  funext j
  show Gen.k2_pay1 (Gen.iblk2 V c 0 t) (Gen.iblk2 V c 1 t) (Gen.iblk2 V c 2 t) (Gen.iblk2 V c 3 t) (Gen.iblk2 V c 4 t)
      ((cfg2.win 5).xinj (grid2.coords t) j)
    = Cert.Gcn.bnLeaky (V c main_v48) (V c main_v51) (V c main_v55) (V c main_v56) (V c main_v57)
      (((cfg2.win 5).blk t).view.emb j)
  refine entry_eq (V c main_v48) (V c main_v51) (V c main_v55) (V c main_v56) (V c main_v57)
    (Gen.iblk2 V c 0 t) (Gen.iblk2 V c 1 t) (Gen.iblk2 V c 2 t) (Gen.iblk2 V c 3 t) (Gen.iblk2 V c 4 t)
    ((cfg2.win 5).xinj (grid2.coords t) j) (((cfg2.win 5).blk t).view.emb j) ?_ ?_ ?_ ?_ ?_ ?_
  · show win2_5.index t (1 : Fin 2) * 64 + 1 * (j 1).val = (j 1).val
    rw [g1]; omega
  · show V c main_v48 (((cfg2.win 0).blk t).view.emb ((cfg2.win 5).xinj (grid2.coords t) j))
        = V c main_v48 (((cfg2.win 5).blk t).view.emb j)
    refine congrArg (V c main_v48) (funext fun a => Fin.ext ?_)
    match a with
    | ⟨0, _⟩ => show win2_0.index t (0 : Fin 2) * 5000 + 1 * (j 0).val = win2_5.index t (0 : Fin 2) * 5000 + 1 * (j 0).val; rw [a0, g0]
    | ⟨1, _⟩ => show win2_0.index t (1 : Fin 2) * 64 + 1 * (j 1).val = win2_5.index t (1 : Fin 2) * 64 + 1 * (j 1).val; rw [a1, g1]
  · funext z
    show V c main_v51 (((cfg2.win 1).blk t).view.emb z) = V c main_v51 z
    refine congrArg (V c main_v51) (funext fun a => Fin.ext ?_)
    match a with
    | ⟨0, _⟩ => show win2_1.index t (0 : Fin 2) * 1 + 1 * (z 0).val = (z 0).val; rw [b0]; omega
    | ⟨1, _⟩ => show win2_1.index t (1 : Fin 2) * 64 + 1 * (z 1).val = (z 1).val; rw [b1]; omega
  · funext z
    show V c main_v55 (((cfg2.win 2).blk t).view.emb z) = V c main_v55 z
    refine congrArg (V c main_v55) (funext fun a => Fin.ext ?_)
    match a with
    | ⟨0, _⟩ => show win2_2.index t (0 : Fin 2) * 1 + 1 * (z 0).val = (z 0).val; rw [c0]; omega
    | ⟨1, _⟩ => show win2_2.index t (1 : Fin 2) * 64 + 1 * (z 1).val = (z 1).val; rw [c1]; omega
  · funext z
    show V c main_v56 (((cfg2.win 3).blk t).view.emb z) = V c main_v56 z
    refine congrArg (V c main_v56) (funext fun a => Fin.ext ?_)
    match a with
    | ⟨0, _⟩ => show win2_3.index t (0 : Fin 2) * 1 + 1 * (z 0).val = (z 0).val; rw [d0]; omega
    | ⟨1, _⟩ => show win2_3.index t (1 : Fin 2) * 64 + 1 * (z 1).val = (z 1).val; rw [d1]; omega
  · funext z
    show V c main_v57 (((cfg2.win 4).blk t).view.emb z) = V c main_v57 z
    refine congrArg (V c main_v57) (funext fun a => Fin.ext ?_)
    match a with
    | ⟨0, _⟩ => show win2_4.index t (0 : Fin 2) * 1 + 1 * (z 0).val = (z 0).val; rw [f0]; omega
    | ⟨1, _⟩ => show win2_4.index t (1 : Fin 2) * 64 + 1 * (z 1).val = (z 1).val; rw [f1]; omega

/-! ## The blocks tile the rows -/

/-- An index of the result lies in point t's block exactly when each coordinate lies in the block's range on its axis. -/
theorem mem_block (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v58).slice (win2_5.rect t)).set ↔ _
  rw [View.set_slice_whole, Rect.mem_set_unit]
  exact Iff.rfl

/-- Row p of the result lies in the block of point p / 5000, which is written back: 20 blocks of 5000 rows make up the
    100000 rows, and every block holds all 64 columns. -/
theorem rows_covered (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : grid2.N = 20 := Gen.N_2
  have ht : (i 0).val / 5000 < cfg2.N := by show (i 0).val / 5000 < grid2.N; rw [hN]; omega
  obtain ⟨-, -, -, -, -, -, -, -, -, -, g0, g1⟩ := block_index ⟨(i 0).val / 5000, ht⟩
  refine ⟨⟨(i 0).val / 5000, ht⟩, Gen.flush2_5 _, ?_⟩
  rw [mem_block]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [g0]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [g1]; omega

/-! ## The whole result -/

/-- After the last point the result array is the specified step of the arrays found on entry: every row has been
    written back by exactly the point whose block holds it, with that block of the specified step. -/
theorem final (c : Dev nD) :
    (Gen.dat2 (F := Ideal) V c).arrAt 5 cfg2.N
      = Cert.Gcn.bnLeaky (V c main_v48) (V c main_v51) (V c main_v55) (V c main_v56) (V c main_v57) :=
  (Gen.dat2 (F := Ideal) V c).arrAt_eq_of_cover 5
    (Cert.Gcn.bnLeaky (V c main_v48) (V c main_v51) (V c main_v55) (V c main_v56) (V c main_v57))
    (fun t _ => written_eq V c t) rows_covered

end Cert.KernelIdeal.RegNorm

end
-- ==== Proof.KHost.lean ====
/- The kernel's result, read through @main's ten segments, is the reference's last stage of the arguments.

   The contents of the buffers at each segment boundary are a fold from the launch memory. Each stretch of host
   operations is read once over an arbitrary starting valuation; each region's output array is what its blocks
   assemble to (the dense product, the column sums, the normalised and rectified features). Chaining these from the
   launch memory gives, in turn: the edge arrays and their normalisation; the first dense product; the first
   layer's output h; the column sums of h and of its squares; the mean and the kernel's variance rows; the step
   between the layers, which is the reference's when h is real; the second dense product; the second layer. -/
import proofs.«167711_j76802605187487_1_alg».proof.Proof.Gen.KernelIdeal.Frame
import proofs.«167711_j76802605187487_1_alg».proof.Proof.Layer
import proofs.«167711_j76802605187487_1_alg».proof.Proof.KBn
import proofs.«167711_j76802605187487_1_alg».proof.Proof.RegLinear
import proofs.«167711_j76802605187487_1_alg».proof.Proof.RegStats
import proofs.«167711_j76802605187487_1_alg».proof.Proof.RegNorm

set_option maxRecDepth 16384

noncomputable section

namespace Cert.KernelIdeal.KHost

open Cert.KernelIdeal Cert.KernelIdeal.Gen
open Idealize.ShloMosaic Idealize.ShloMosaic.TcCoe Idealize.ShloMosaic.Tactic Idealize.ShloMosaic.StableHlo
open Idealize.SL Idealize.SL.Sem

open Cert.ReferenceIdeal.ReadP Cert.Gcn.Layer Cert.Gcn.KBn

/-! ## Each stretch of host operations, over an arbitrary starting valuation -/

section Stretches

variable (Wv : Valuation τ sig (Elt Ideal))

/-- The three stretches before the first dense product, in order. -/
abbrev pre : Valuation τ sig (Elt Ideal) := StableHlo.after (hostOps0_2 (F := Ideal)) (StableHlo.after (hostOps0_1 (F := Ideal)) (StableHlo.after (hostOps0 (F := Ideal)) Wv))

set_option maxHeartbeats 8000000 in
/-- They leave the edges' sources (the edge list's first row followed by the self-loops) … -/
theorem pre_src : pre Wv (Proc.devRef .tc main_v3) = val_main_v3 (F := Ideal) (Wv (Proc.devRef .tc main_arg1)) := by
  simp only [pre, hostOps0, hostOps0_1, hostOps0_2]; after_results; rfl
set_option maxHeartbeats 8000000 in
/-- … and the edges' targets (the second row followed by the self-loops). -/
theorem pre_dst : pre Wv (Proc.devRef .tc main_v6) = val_main_v6 (F := Ideal) (Wv (Proc.devRef .tc main_arg1)) := by
  simp only [pre, hostOps0, hostOps0_1, hostOps0_2]; after_results; rfl
/-- They write no argument. -/
theorem pre_arg0 : pre Wv (Proc.devRef .tc main_arg0) = Wv (Proc.devRef .tc main_arg0) := by
  simp only [pre, hostOps0, hostOps0_1, hostOps0_2]; after_results
/-- They write no argument. -/
theorem pre_arg2 : pre Wv (Proc.devRef .tc main_arg2) = Wv (Proc.devRef .tc main_arg2) := by
  simp only [pre, hostOps0, hostOps0_1, hostOps0_2]; after_results
/-- They write no argument. -/
theorem pre_arg3 : pre Wv (Proc.devRef .tc main_arg3) = Wv (Proc.devRef .tc main_arg3) := by
  simp only [pre, hostOps0, hostOps0_1, hostOps0_2]; after_results
/-- They write no argument. -/
theorem pre_arg4 : pre Wv (Proc.devRef .tc main_arg4) = Wv (Proc.devRef .tc main_arg4) := by
  simp only [pre, hostOps0, hostOps0_1, hostOps0_2]; after_results
/-- They write no argument. -/
theorem pre_arg5 : pre Wv (Proc.devRef .tc main_arg5) = Wv (Proc.devRef .tc main_arg5) := by
  simp only [pre, hostOps0, hostOps0_1, hostOps0_2]; after_results
/-- They write no argument. -/
theorem pre_arg6 : pre Wv (Proc.devRef .tc main_arg6) = Wv (Proc.devRef .tc main_arg6) := by
  simp only [pre, hostOps0, hostOps0_1, hostOps0_2]; after_results
/-- They write no argument. -/
theorem pre_arg7 : pre Wv (Proc.devRef .tc main_arg7) = Wv (Proc.devRef .tc main_arg7) := by
  simp only [pre, hostOps0, hostOps0_1, hostOps0_2]; after_results

/-! The normalisation, stretch by stretch: the first stretch leaves the degree's positivity test, the inverse square
    root of the degree raised to at least one, and a zero; the second selects between them; the third gathers the
    selection at both endpoints of every edge and multiplies. -/

set_option maxHeartbeats 4000000 in
theorem first_src : StableHlo.after (hostOps0 (F := Ideal)) Wv (Proc.devRef .tc main_v3) = val_main_v3 (F := Ideal) (Wv (Proc.devRef .tc main_arg1)) := by
  simp only [hostOps0]; after_results; rfl
set_option maxHeartbeats 4000000 in
theorem first_dst : StableHlo.after (hostOps0 (F := Ideal)) Wv (Proc.devRef .tc main_v6) = val_main_v6 (F := Ideal) (Wv (Proc.devRef .tc main_arg1)) := by
  simp only [hostOps0]; after_results; rfl
set_option maxHeartbeats 4000000 in
theorem first_pos : StableHlo.after (hostOps0 (F := Ideal)) Wv (Proc.devRef .tc main_v12) = val_main_v12 (F := Ideal) (Wv (Proc.devRef .tc main_arg1)) := by
  simp only [hostOps0]; after_results; rfl
set_option maxHeartbeats 4000000 in
theorem first_rsqrt : StableHlo.after (hostOps0 (F := Ideal)) Wv (Proc.devRef .tc main_v15) = val_main_v15 (F := Ideal) (Wv (Proc.devRef .tc main_arg1)) := by
  simp only [hostOps0]; after_results; rfl
theorem first_zero : StableHlo.after (hostOps0 (F := Ideal)) Wv (Proc.devRef .tc main_cst_3) = val_main_cst_3 (F := Ideal) := by
  simp only [hostOps0]; after_results; rfl

theorem second_dinv : StableHlo.after (hostOps0_1 (F := Ideal)) Wv (Proc.devRef .tc main_v16)
    = dinvOf (Wv (Proc.devRef .tc main_v12)) (Wv (Proc.devRef .tc main_v15)) (Wv (Proc.devRef .tc main_cst_3)) := by
  simp only [hostOps0_1]; after_results; rfl
theorem second_src : StableHlo.after (hostOps0_1 (F := Ideal)) Wv (Proc.devRef .tc main_v3) = Wv (Proc.devRef .tc main_v3) := by
  simp only [hostOps0_1]; after_results
theorem second_dst : StableHlo.after (hostOps0_1 (F := Ideal)) Wv (Proc.devRef .tc main_v6) = Wv (Proc.devRef .tc main_v6) := by
  simp only [hostOps0_1]; after_results

set_option maxHeartbeats 4000000 in
theorem third_nrm : StableHlo.after (hostOps0_2 (F := Ideal)) Wv (Proc.devRef .tc main_v31)
    = nrmOf (Wv (Proc.devRef .tc main_v16)) (Wv (Proc.devRef .tc main_v3)) (Wv (Proc.devRef .tc main_v6)) := by
  simp only [hostOps0_2]; after_results; rfl

/-- The three stretches leave the edges' normalisation: the product of the inverse square roots of the two endpoints'
    degrees (zero where a degree is not positive). -/
theorem pre_nrm : pre Wv (Proc.devRef .tc main_v31) = val_main_v31 (F := Ideal) (Wv (Proc.devRef .tc main_arg1)) := by
  refine (third_nrm _).trans ?_
  rw [second_dinv, second_src, second_dst, first_pos, first_rsqrt, first_zero, first_src, first_dst]
  exact (ref_nrm _).symm

set_option maxHeartbeats 8000000 in
/-- The stretch after the first dense product is one layer of it. -/
theorem host1_layer : StableHlo.after (hostOps1 (F := Ideal)) Wv (Proc.devRef .tc main_v48)
    = layer (Wv (Proc.devRef .tc main_v3)) (Wv (Proc.devRef .tc main_v6)) (Wv (Proc.devRef .tc main_v31)) (Wv (Proc.devRef .tc main_v32)) (Wv (Proc.devRef .tc main_arg3)) := by
  simp only [hostOps1]; after_results; rfl

set_option maxHeartbeats 8000000 in
/-- The stretch after the second dense product is one layer of it. -/
theorem host4_layer : StableHlo.after (hostOps4 (F := Ideal)) Wv (Proc.devRef .tc main_v75)
    = layer (Wv (Proc.devRef .tc main_v3)) (Wv (Proc.devRef .tc main_v6)) (Wv (Proc.devRef .tc main_v31)) (Wv (Proc.devRef .tc main_v59)) (Wv (Proc.devRef .tc main_arg7)) := by
  simp only [hostOps4]; after_results; rfl

/-- The stretch after the column statistics: the mean row … -/
theorem host2_mean : StableHlo.after (hostOps2 (F := Ideal)) Wv (Proc.devRef .tc main_v51) = meanRow (Wv (Proc.devRef .tc main_v49_0)) := by
  simp only [hostOps2]; after_results; rfl
/-- … the kernel's variance row … -/
theorem host2_var : StableHlo.after (hostOps2 (F := Ideal)) Wv (Proc.devRef .tc main_v55)
    = varRow (Wv (Proc.devRef .tc main_v49_0)) (Wv (Proc.devRef .tc main_v49_1)) := by
  simp only [hostOps2]; after_results; rfl
/-- … and the scale and the shift as rows. -/
theorem host2_gamma : StableHlo.after (hostOps2 (F := Ideal)) Wv (Proc.devRef .tc main_v56) = rowOf (Wv (Proc.devRef .tc main_arg4)) := by
  simp only [hostOps2]; after_results; rfl
theorem host2_beta : StableHlo.after (hostOps2 (F := Ideal)) Wv (Proc.devRef .tc main_v57) = rowOf (Wv (Proc.devRef .tc main_arg5)) := by
  simp only [hostOps2]; after_results; rfl

end Stretches

/-! ## The contents at the segment boundaries, from the launch memory -/

section Chain

variable (m : (ℓ : Loc nD τ sig) → Buf (Elt Ideal) ℓ) (ρ : Dev nD → PrngReg) (c : Dev nD)

theorem W3_src : W3 m ρ c (Proc.devRef .tc main_v3) = val_main_v3 (F := Ideal) (m ((c.tc : Thread nD τ).loc main_arg1)) := pre_src (W0 m ρ c)
theorem W3_dst : W3 m ρ c (Proc.devRef .tc main_v6) = val_main_v6 (F := Ideal) (m ((c.tc : Thread nD τ).loc main_arg1)) := pre_dst (W0 m ρ c)
theorem W3_nrm : W3 m ρ c (Proc.devRef .tc main_v31) = val_main_v31 (F := Ideal) (m ((c.tc : Thread nD τ).loc main_arg1)) := pre_nrm (W0 m ρ c)
theorem W3_arg0 : W3 m ρ c (Proc.devRef .tc main_arg0) = (m ((c.tc : Thread nD τ).loc main_arg0)) := pre_arg0 (W0 m ρ c)
theorem W3_arg2 : W3 m ρ c (Proc.devRef .tc main_arg2) = (m ((c.tc : Thread nD τ).loc main_arg2)) := pre_arg2 (W0 m ρ c)
theorem W3_arg3 : W3 m ρ c (Proc.devRef .tc main_arg3) = (m ((c.tc : Thread nD τ).loc main_arg3)) := pre_arg3 (W0 m ρ c)
theorem W3_arg4 : W3 m ρ c (Proc.devRef .tc main_arg4) = (m ((c.tc : Thread nD τ).loc main_arg4)) := pre_arg4 (W0 m ρ c)
theorem W3_arg5 : W3 m ρ c (Proc.devRef .tc main_arg5) = (m ((c.tc : Thread nD τ).loc main_arg5)) := pre_arg5 (W0 m ρ c)
theorem W3_arg6 : W3 m ρ c (Proc.devRef .tc main_arg6) = (m ((c.tc : Thread nD τ).loc main_arg6)) := pre_arg6 (W0 m ρ c)
theorem W3_arg7 : W3 m ρ c (Proc.devRef .tc main_arg7) = (m ((c.tc : Thread nD τ).loc main_arg7)) := pre_arg7 (W0 m ρ c)

theorem keep_v3_3_4 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)
theorem keep_v3_3_9 : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := (show StableHlo.after (hostOps2 (F := Ideal)) (W6 m ρ c) (Proc.devRef .tc main_v3) = W6 m ρ c (Proc.devRef .tc main_v3) from by simp only [hostOps2]; after_results)
    _ = W5 m ρ c (Proc.devRef .tc main_v3) := W6_of_ne m ρ c main_v3 (by decide)
    _ = W4 m ρ c (Proc.devRef .tc main_v3) := (show StableHlo.after (hostOps1 (F := Ideal)) (W4 m ρ c) (Proc.devRef .tc main_v3) = W4 m ρ c (Proc.devRef .tc main_v3) from by simp only [hostOps1]; after_results)
    _ = W3 m ρ c (Proc.devRef .tc main_v3) := W4_of_ne m ρ c main_v3 (by decide)
theorem keep_v6_3_4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)
theorem keep_v6_3_9 : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := (show StableHlo.after (hostOps2 (F := Ideal)) (W6 m ρ c) (Proc.devRef .tc main_v6) = W6 m ρ c (Proc.devRef .tc main_v6) from by simp only [hostOps2]; after_results)
    _ = W5 m ρ c (Proc.devRef .tc main_v6) := W6_of_ne m ρ c main_v6 (by decide)
    _ = W4 m ρ c (Proc.devRef .tc main_v6) := (show StableHlo.after (hostOps1 (F := Ideal)) (W4 m ρ c) (Proc.devRef .tc main_v6) = W4 m ρ c (Proc.devRef .tc main_v6) from by simp only [hostOps1]; after_results)
    _ = W3 m ρ c (Proc.devRef .tc main_v6) := W4_of_ne m ρ c main_v6 (by decide)
theorem keep_v31_3_4 : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)
theorem keep_v31_3_9 : W9 m ρ c (Proc.devRef .tc main_v31) = W3 m ρ c (Proc.devRef .tc main_v31) :=
  calc W9 m ρ c (Proc.devRef .tc main_v31)
    _ = W8 m ρ c (Proc.devRef .tc main_v31) := W9_of_ne m ρ c main_v31 (by decide)
    _ = W7 m ρ c (Proc.devRef .tc main_v31) := W8_of_ne m ρ c main_v31 (by decide)
    _ = W6 m ρ c (Proc.devRef .tc main_v31) := (show StableHlo.after (hostOps2 (F := Ideal)) (W6 m ρ c) (Proc.devRef .tc main_v31) = W6 m ρ c (Proc.devRef .tc main_v31) from by simp only [hostOps2]; after_results)
    _ = W5 m ρ c (Proc.devRef .tc main_v31) := W6_of_ne m ρ c main_v31 (by decide)
    _ = W4 m ρ c (Proc.devRef .tc main_v31) := (show StableHlo.after (hostOps1 (F := Ideal)) (W4 m ρ c) (Proc.devRef .tc main_v31) = W4 m ρ c (Proc.devRef .tc main_v31) from by simp only [hostOps1]; after_results)
    _ = W3 m ρ c (Proc.devRef .tc main_v31) := W4_of_ne m ρ c main_v31 (by decide)
theorem keep_arg3_3_4 : W4 m ρ c (Proc.devRef .tc main_arg3) = W3 m ρ c (Proc.devRef .tc main_arg3) :=
  calc W4 m ρ c (Proc.devRef .tc main_arg3)
    _ = W3 m ρ c (Proc.devRef .tc main_arg3) := W4_of_ne m ρ c main_arg3 (by decide)
theorem keep_arg4_3_6 : W6 m ρ c (Proc.devRef .tc main_arg4) = W3 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := (show StableHlo.after (hostOps1 (F := Ideal)) (W4 m ρ c) (Proc.devRef .tc main_arg4) = W4 m ρ c (Proc.devRef .tc main_arg4) from by simp only [hostOps1]; after_results)
    _ = W3 m ρ c (Proc.devRef .tc main_arg4) := W4_of_ne m ρ c main_arg4 (by decide)
theorem keep_arg5_3_6 : W6 m ρ c (Proc.devRef .tc main_arg5) = W3 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := (show StableHlo.after (hostOps1 (F := Ideal)) (W4 m ρ c) (Proc.devRef .tc main_arg5) = W4 m ρ c (Proc.devRef .tc main_arg5) from by simp only [hostOps1]; after_results)
    _ = W3 m ρ c (Proc.devRef .tc main_arg5) := W4_of_ne m ρ c main_arg5 (by decide)
theorem keep_arg6_3_8 : W8 m ρ c (Proc.devRef .tc main_arg6) = W3 m ρ c (Proc.devRef .tc main_arg6) :=
  calc W8 m ρ c (Proc.devRef .tc main_arg6)
    _ = W7 m ρ c (Proc.devRef .tc main_arg6) := W8_of_ne m ρ c main_arg6 (by decide)
    _ = W6 m ρ c (Proc.devRef .tc main_arg6) := (show StableHlo.after (hostOps2 (F := Ideal)) (W6 m ρ c) (Proc.devRef .tc main_arg6) = W6 m ρ c (Proc.devRef .tc main_arg6) from by simp only [hostOps2]; after_results)
    _ = W5 m ρ c (Proc.devRef .tc main_arg6) := W6_of_ne m ρ c main_arg6 (by decide)
    _ = W4 m ρ c (Proc.devRef .tc main_arg6) := (show StableHlo.after (hostOps1 (F := Ideal)) (W4 m ρ c) (Proc.devRef .tc main_arg6) = W4 m ρ c (Proc.devRef .tc main_arg6) from by simp only [hostOps1]; after_results)
    _ = W3 m ρ c (Proc.devRef .tc main_arg6) := W4_of_ne m ρ c main_arg6 (by decide)
theorem keep_arg7_3_9 : W9 m ρ c (Proc.devRef .tc main_arg7) = W3 m ρ c (Proc.devRef .tc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := (show StableHlo.after (hostOps2 (F := Ideal)) (W6 m ρ c) (Proc.devRef .tc main_arg7) = W6 m ρ c (Proc.devRef .tc main_arg7) from by simp only [hostOps2]; after_results)
    _ = W5 m ρ c (Proc.devRef .tc main_arg7) := W6_of_ne m ρ c main_arg7 (by decide)
    _ = W4 m ρ c (Proc.devRef .tc main_arg7) := (show StableHlo.after (hostOps1 (F := Ideal)) (W4 m ρ c) (Proc.devRef .tc main_arg7) = W4 m ρ c (Proc.devRef .tc main_arg7) from by simp only [hostOps1]; after_results)
    _ = W3 m ρ c (Proc.devRef .tc main_arg7) := W4_of_ne m ρ c main_arg7 (by decide)
theorem keep_v48_5_7 : W7 m ρ c (Proc.devRef .tc main_v48) = W5 m ρ c (Proc.devRef .tc main_v48) :=
  calc W7 m ρ c (Proc.devRef .tc main_v48)
    _ = W6 m ρ c (Proc.devRef .tc main_v48) := (show StableHlo.after (hostOps2 (F := Ideal)) (W6 m ρ c) (Proc.devRef .tc main_v48) = W6 m ρ c (Proc.devRef .tc main_v48) from by simp only [hostOps2]; after_results)
    _ = W5 m ρ c (Proc.devRef .tc main_v48) := (W6_arr m ρ c 0).trans (((dat1 (V5 m ρ) c).arrAt_in 0 rfl _).trans (A_eq1 (V5 m ρ) c 0))

/-- The first layer's output, as the reference's stage of the arguments. -/
abbrev hOf : (⟨Cert.ReferenceIdeal.S100000x64, .f32⟩ : BufTy).Contents (Elt Ideal) :=
  val_main_v48 (F := Ideal) (m ((c.tc : Thread nD τ).loc main_arg0)) (m ((c.tc : Thread nD τ).loc main_arg1)) (m ((c.tc : Thread nD τ).loc main_arg2)) (m ((c.tc : Thread nD τ).loc main_arg3))

/-- After the first dense product: the product of the features with the first weight. -/
theorem W4_lin : W4 m ρ c (Proc.devRef .tc main_v32) = Cert.Gcn.linear (m ((c.tc : Thread nD τ).loc main_arg0)) (m ((c.tc : Thread nD τ).loc main_arg2)) :=
  (W4_arr m ρ c 2).trans ((Cert.KernelIdeal.RegLinear.final0 (V3 m ρ) c).trans (by
    rw [show V3 m ρ c main_arg0 = (m ((c.tc : Thread nD τ).loc main_arg0)) from W3_arg0 m ρ c, show V3 m ρ c main_arg2 = (m ((c.tc : Thread nD τ).loc main_arg2)) from W3_arg2 m ρ c]))

/-- After the stretch that follows: the reference's first layer output. -/
theorem W5_h : W5 m ρ c (Proc.devRef .tc main_v48) = hOf m c := by
  refine (host1_layer (W4 m ρ c)).trans ?_
  rw [keep_v3_3_4, keep_v6_3_4, keep_v31_3_4, keep_arg3_3_4, W3_src, W3_dst, W3_nrm, W3_arg3, W4_lin,
    ← Cert.Gcn.Layer.dot_eq_linear]
  exact (Cert.Gcn.Layer.ref_first _ _ _ _).symm

/-- After the column statistics: the column sums of h … -/
theorem W6_sum : W6 m ρ c (Proc.devRef .tc main_v49_0) = Cert.Gcn.colSum (hOf m c) :=
  (W6_arr m ρ c 1).trans ((Cert.KernelIdeal.RegStats.final_sum (V5 m ρ) c).trans (by
    rw [show V5 m ρ c main_v48 = hOf m c from W5_h m ρ c]))
/-- … and of its squares. -/
theorem W6_sumsq : W6 m ρ c (Proc.devRef .tc main_v49_1) = Cert.Gcn.colSumSq (hOf m c) :=
  (W6_arr m ρ c 2).trans ((Cert.KernelIdeal.RegStats.final_sumsq (V5 m ρ) c).trans (by
    rw [show V5 m ρ c main_v48 = hOf m c from W5_h m ρ c]))

theorem W7_h : W7 m ρ c (Proc.devRef .tc main_v48) = hOf m c := (keep_v48_5_7 m ρ c).trans (W5_h m ρ c)
theorem W7_mean : W7 m ρ c (Proc.devRef .tc main_v51) = meanRow (Cert.Gcn.colSum (hOf m c)) :=
  (host2_mean (W6 m ρ c)).trans (by rw [W6_sum])
theorem W7_var : W7 m ρ c (Proc.devRef .tc main_v55) = varRow (Cert.Gcn.colSum (hOf m c)) (Cert.Gcn.colSumSq (hOf m c)) :=
  (host2_var (W6 m ρ c)).trans (by rw [W6_sum, W6_sumsq])
theorem W7_gamma : W7 m ρ c (Proc.devRef .tc main_v56) = rowOf (m ((c.tc : Thread nD τ).loc main_arg4)) :=
  (host2_gamma (W6 m ρ c)).trans (by rw [keep_arg4_3_6, W3_arg4])
theorem W7_beta : W7 m ρ c (Proc.devRef .tc main_v57) = rowOf (m ((c.tc : Thread nD τ).loc main_arg5)) :=
  (host2_beta (W6 m ρ c)).trans (by rw [keep_arg5_3_6, W3_arg5])

/-- After the step between the layers: the reference's rectified features, when h is real. -/
theorem W8_out (hr : Cert.Gcn.AllReal (hOf m c)) : W8 m ρ c (Proc.devRef .tc main_v58)
    = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_arr m ρ c 5).trans ((Cert.KernelIdeal.RegNorm.final (V7 m ρ) c).trans (by
    rw [show V7 m ρ c main_v48 = hOf m c from W7_h m ρ c,
      show V7 m ρ c main_v51 = meanRow (Cert.Gcn.colSum (hOf m c)) from W7_mean m ρ c,
      show V7 m ρ c main_v55 = varRow (Cert.Gcn.colSum (hOf m c)) (Cert.Gcn.colSumSq (hOf m c)) from W7_var m ρ c,
      show V7 m ρ c main_v56 = rowOf (m ((c.tc : Thread nD τ).loc main_arg4)) from W7_gamma m ρ c,
      show V7 m ρ c main_v57 = rowOf (m ((c.tc : Thread nD τ).loc main_arg5)) from W7_beta m ρ c]
    exact Cert.Gcn.KBn.step_eq _ _ _ _ _ _ hr))

/-- After the second dense product: the reference's product of the rectified features with the second weight. -/
theorem W9_lin (hr : Cert.Gcn.AllReal (hOf m c)) : W9 m ρ c (Proc.devRef .tc main_v59)
    = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (W9_arr m ρ c 2).trans ((Cert.KernelIdeal.RegLinear.final3 (V8 m ρ) c).trans (by
    rw [show V8 m ρ c main_v58 = _ from W8_out m ρ c hr,
      show V8 m ρ c main_arg6 = (m ((c.tc : Thread nD τ).loc main_arg6)) from (keep_arg6_3_8 m ρ c).trans (W3_arg6 m ρ c),
      ← Cert.Gcn.Layer.dot_eq_linear]
    rfl))

/-- The kernel's result is the reference's last stage of the arguments, when h is real. -/
theorem W10_out (hr : Cert.Gcn.AllReal (hOf m c)) : W10 m ρ c (Proc.devRef .tc main_v75)
    = val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (host4_layer (W9 m ρ c)).trans ?_
  rw [keep_v3_3_9, keep_v6_3_9, keep_v31_3_9, keep_arg7_3_9, W3_src, W3_dst, W3_nrm, W3_arg7, W9_lin m ρ c hr]
  exact (Cert.Gcn.Layer.ref_second _ _ _ _ _ _ _ _).symm

end Chain

end Cert.KernelIdeal.KHost

end
-- ==== Proof.RefValue.lean ====
/- The reference's run, with its result as a function of the arguments.

   The reference's @main is a straight line of 120 host operations. Every weakly fair execution ends with each buffer
   at the fold of the operations' results over the launch contents; read at the result's buffer the fold is the last
   stage, `val_main_v95`, of the eight argument arrays, and read at an argument's buffer it is the launch contents,
   since no operation writes an argument. -/
import proofs.«167711_j76802605187487_1_alg».proof.Proof.RefReadP

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

set_option maxRecDepth 8192 in
set_option maxHeartbeats 48000000 in
/-- The fold of the 120 operations, read at the result's buffer, is the last stage of the arguments. -/
theorem result_eq (m : (ℓ : Loc nD τ sig) → Buf (Elt F) ℓ) (c : Dev nD) :
    after (ops (F := F)) (launchContents m c) (Proc.devRef .tc main_v95)
      = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp <;> rfl

set_option maxRecDepth 8192 in
set_option maxHeartbeats 48000000 in
/-- Every weakly fair execution of the reference terminates with the result at the last stage of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v95).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefValue

end
-- ==== Proof.RealH.lean ====
/- Every entry of the first layer's output is a real number.

   The first layer is  h = A · (X W) + b : the dense product X W of the features with the weight, each edge's source row
   scaled by the edge's coefficient, the scaled rows summed into the edge's target row, and the bias added to every row.
   An edge's coefficient is the product of two entries of the vector  d^(-1/2) (and 0 where the degree d is 0), where the
   degree of a node is a count: a sum of ones.

   None of this needs to know WHICH rows an edge joins. An entry of a gathered array is one entry of its operand; an
   entry of an accumulating scatter is the operand's entry plus a finite sum of update entries; an entry of the dense
   product is a finite sum of products. Sums and products of finitely many real numbers are real, a maximum of two reals
   is real, and the reciprocal square root of a real number that is at least 1 is real. So when the features, the weight
   and the bias hold real numbers only, so does h, whatever the edge list is.

   The second part reads the precondition: each of its conjuncts says that every entry x of one argument satisfies
   |x| < +∞, and an extended real with |x| < +∞ is a real number. -/
import proofs.«167711_j76802605187487_1_alg».proof.Proof.RefReadP
import proofs.«167711_j76802605187487_1_alg».proof.Proof.Spec
import proofs.«167711_j76802605187487_1_alg».proof.Pre_finite_inputs
import Idealize.ShloMosaic.Lib.ReduceAll
import Idealize.ShloMosaic.Lib.Pipeline.Value
import Idealize.ShloMosaic.Lib.ValueIdx
import Idealize.ShloMosaic.PureOps.Ideal.Laws

set_option maxRecDepth 16384

noncomputable section

namespace Cert.Gcn.RealH

open Cert.ReferenceIdeal Cert.ReferenceIdeal.ReadP Idealize.ShloMosaic Cert.LibRealEntries

/-! ## The stages of the first layer, innermost first -/

section Stages

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))

/-- The degree of a node is a count: 0 plus a finite sum of ones. -/
theorem deg_real : Cert.Gcn.AllReal (S := S100000) (val_main_v10 (F := Ideal) x1) := by
  unfold val_main_v10
  refine allReal_scatterAdd _ _ _ _ (fun i => ?_) (fun j => ?_)
  · rw [val_main_v8_apply, val_main_cst_0_apply]; exact real_zero
  · rw [val_main_v7_apply, val_main_cst_apply]; exact real_one

/-- The vector d^(-1/2): where the degree d is positive the reciprocal square root of max(d, 1), elsewhere 0. -/
theorem dinv_real : Cert.Gcn.AllReal (S := S100000) (val_main_v16 (F := Ideal) x1) := by
  intro i
  rw [val_main_v16_apply]
  refine real_select _ ?_ ?_
  · rw [val_main_v15_apply, val_main_v14_apply, val_main_v13_apply, val_main_cst_2_apply, Ideal.hostUnary_rsqrt_def,
      Ideal.maximumf_def, Ideal.ofBits_def, Cert.Gcn.ofBits_one]
    exact real_rsqrt_max_one (deg_real x1 i)
  · rw [val_main_call0_v1_apply, val_main_call0_v0_apply, val_main_cst_3_apply]; exact real_zero

/-- An edge's coefficient: the product of two entries of d^(-1/2). -/
theorem coef_real : Cert.Gcn.AllReal (S := S1700000) (val_main_v31 (F := Ideal) x1) := by
  intro i
  rw [val_main_v31_apply, Ideal.mulf_def]
  exact real_mul (allReal_gather _ _ _ (dinv_real x1) i) (allReal_gather _ _ _ (dinv_real x1) i)

/-- The dense product X W: an entry is a sum of 64 products. -/
theorem xw_real (h0 : Cert.Gcn.AllReal x0) (h2 : Cert.Gcn.AllReal x2) :
    Cert.Gcn.AllReal (S := S100000x64) (val_main_v32 (F := Ideal) x0 x2) := by
  intro i
  rw [val_main_v32_apply]
  exact real_sum _ _ fun k => real_mul (h0 _) (h2 _)

/-- An edge's scaled row: a row of X W times the edge's coefficient. -/
theorem scaled_real (h0 : Cert.Gcn.AllReal x0) (h2 : Cert.Gcn.AllReal x2) :
    Cert.Gcn.AllReal (S := S1700000x64) (val_main_v42 (F := Ideal) x0 x1 x2) := by
  intro i
  rw [val_main_v42_apply, Ideal.mulf_def, val_main_v41_apply, val_main_v40_apply]
  exact real_mul (allReal_gather _ _ _ (xw_real x0 x2 h0 h2) i) (coef_real x1 _)

/-- The scaled rows summed into their target rows: 0 plus a finite sum of entries of scaled rows. -/
theorem agg_real (h0 : Cert.Gcn.AllReal x0) (h2 : Cert.Gcn.AllReal x2) :
    Cert.Gcn.AllReal (S := S100000x64) (val_main_v45 (F := Ideal) x0 x1 x2) := by
  unfold val_main_v45
  refine allReal_scatterAdd _ _ _ _ (fun i => ?_) (scaled_real x0 x1 x2 h0 h2)
  rw [val_main_v43_apply, val_main_cst_9_apply]; exact real_zero

end Stages

/-- Every entry of the first layer's output is a real number when the features, the weight and the bias hold real numbers
    only: the aggregated entry plus the bias entry of its column. -/
theorem h_real (x0 : (⟨S100000x64, .f32⟩ : BufTy).Contents (Elt Ideal)) (x1 : (⟨S2x1600000, .i32⟩ : BufTy).Contents (Elt Ideal))
    (x2 : (⟨S64x64, .f32⟩ : BufTy).Contents (Elt Ideal)) (x3 : (⟨S64, .f32⟩ : BufTy).Contents (Elt Ideal))
    (h0 : Cert.Gcn.AllReal x0) (h2 : Cert.Gcn.AllReal x2) (h3 : Cert.Gcn.AllReal x3) :
    Cert.Gcn.AllReal (val_main_v48 (F := Ideal) x0 x1 x2 x3) := by
  intro i
  rw [val_main_v48_apply, Ideal.addf_def, val_main_v47_apply, val_main_v46_apply]
  exact real_add (agg_real x0 x1 x2 h0 h2 i) (h3 _)

/-! ## The precondition, read back -/

/-- The literal the precondition compares with is +∞. -/
theorem ofBits_inf : Ideal.ofBits .f32 0x7F800000#32 = (⊤ : EReal) := by
  simp [Ideal.ofBits, Ideal.ieee]

/-- An extended real x with |x| < +∞ is a real number: |−∞| = |+∞| = +∞. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The result of the precondition's reductions has one index. -/
instance : Subsingleton Cert.Pre_finite_inputs.S_.Idx := ⟨fun a b => funext fun d => d.elim0⟩

/-- One conjunct of the precondition: when "every |entry| < +∞" reduces to 1, every entry is a real number. -/
theorem allReal_of_all_finite {S : Shape} {axes : List (Fin S.rank)}
    (hb : Cert.Pre_finite_inputs.S_.BroadcastsInDim S (![] : Fin 0 → Fin S.rank))
    (hr : S.ReducesTo axes Cert.Pre_finite_inputs.S_) (hS : 0 < Cert.Pre_finite_inputs.S_.numel) (a : FVec Ideal S .f32)
    (e : Host.reduce IntOp.andi
          (cmpf .olt (Host.absf a) (broadcastInDim S ![] hb (constant (F := Ideal) Cert.Pre_finite_inputs.S_ .f32 0x7F800000#32)))
          (constantI Cert.Pre_finite_inputs.S_ 1 1#1) hr hS ValueIdx.ix0 = 1#1) :
    Cert.Gcn.AllReal a := by
  intro i
  have hi := Host.reduce_andi_all _ _ hr hS ValueIdx.ix0 e i
  have hc : broadcastInDim S ![] hb (constant (F := Ideal) Cert.Pre_finite_inputs.S_ .f32 0x7F800000#32) i
      = Ideal.ofBits .f32 0x7F800000#32 :=
    broadcastInDim_apply _ hb _ i (fun d => d.elim0) (fun d => d.elim0)
  rw [ValueIdx.cmpf_apply, hc] at hi
  exact real_of_abs_lt_inf (a i) hi

/-- Under the precondition the features, the first weight and the first bias hold real numbers only. -/
theorem args_real [Cert.Pre_finite_inputs.Facts] (a0 : FVec Ideal Cert.Pre_finite_inputs.S100000x64 .f32)
    (a1 : IVec Cert.Pre_finite_inputs.S2x1600000 32) (a2 : FVec Ideal Cert.Pre_finite_inputs.S64x64 .f32)
    (a3 a4 a5 : FVec Ideal Cert.Pre_finite_inputs.S64 .f32) (a6 : FVec Ideal Cert.Pre_finite_inputs.S64x64 .f32)
    (a7 : FVec Ideal Cert.Pre_finite_inputs.S64 .f32)
    (h : Cert.Pre_finite_inputs.fn (F := Ideal) a0 a1 a2 a3 a4 a5 a6 a7 = (fun _ => 1#1)) :
    Cert.Gcn.AllReal a0 ∧ Cert.Gcn.AllReal a2 ∧ Cert.Gcn.AllReal a3 := by
  have e := congrFun h ValueIdx.ix0
  dsimp only [Cert.Pre_finite_inputs.fn, Cert.Pre_finite_inputs.fn_part1, andi] at e
  simp only [IntOp.andi_eq_one] at e
  obtain ⟨⟨⟨⟨⟨⟨e0, e2⟩, e3⟩, -⟩, -⟩, -⟩, -⟩ := e
  exact ⟨allReal_of_all_finite _ _ _ a0 e0, allReal_of_all_finite _ _ _ a2 e2, allReal_of_all_finite _ _ _ a3 e3⟩

end Cert.Gcn.RealH

end
-- ==== Proof.lean ====
/- The certificate: a two-layer graph convolution with batch normalisation between the layers.

   Both programs compute   A · (leaky (bn (A · (x W1) + b1)) W2) + b2,   with A the symmetrically normalised adjacency
   (self-loops added) read off the edge list by the same gathers and accumulating scatters. The kernel computes the two
   dense products, the column statistics and the normalise-and-rectify step tile by tile (20 tiles of 5000 rows);
   the reference computes them whole. At the ideal instance a tile-wise product is the whole product, the tile-wise
   column sums add up to the whole sums, and the only real difference is the variance: the kernel takes
   E[h²] − (E h)², the reference E[(h − E h)²]. These agree because, under the precondition (every float input
   finite), every entry of the first layer's output h is a real number: a gathered entry is an entry of its operand,
   an accumulated entry is a finite sum of reals, the degrees are finite sums of ones and their inverse square roots
   are taken of reals at least one.

   The frames of the two kernel programs are the generated ones; the reference's frame is its run with the result
   dropped. The idealisation rewrote nothing, so `preserves` is trivial. For `algebraic` the kernel's run names
   its result as the last segment boundary's contents, which the walk through the ten segments identifies with the
   reference's last stage of the arguments; the reference's run ends at that stage of its own arguments, and the two
   memories agree on the arguments. -/
import proofs.«167711_j76802605187487_1_alg».proof.Defs
import proofs.«167711_j76802605187487_1_alg».proof.Proof.Gen.Kernel
import proofs.«167711_j76802605187487_1_alg».proof.Proof.Gen.Kernel.Skeleton
import proofs.«167711_j76802605187487_1_alg».proof.Proof.Gen.Kernel.Launch
import proofs.«167711_j76802605187487_1_alg».proof.Proof.Gen.Kernel.Points
import proofs.«167711_j76802605187487_1_alg».proof.Proof.Gen.Kernel.Frame
import proofs.«167711_j76802605187487_1_alg».proof.Proof.Gen.KernelIdeal
import proofs.«167711_j76802605187487_1_alg».proof.Proof.Gen.KernelIdeal.Skeleton
import proofs.«167711_j76802605187487_1_alg».proof.Proof.Gen.KernelIdeal.Launch
import proofs.«167711_j76802605187487_1_alg».proof.Proof.Gen.KernelIdeal.Points
import proofs.«167711_j76802605187487_1_alg».proof.Proof.Gen.KernelIdeal.Frame
import proofs.«167711_j76802605187487_1_alg».proof.Proof.Gen.ReferenceIdeal
import proofs.«167711_j76802605187487_1_alg».proof.Proof.Gen.Pre_finite_inputs
import proofs.«167711_j76802605187487_1_alg».proof.Proof.KRun
import proofs.«167711_j76802605187487_1_alg».proof.Proof.KHost
import proofs.«167711_j76802605187487_1_alg».proof.Proof.RefValue
import proofs.«167711_j76802605187487_1_alg».proof.Proof.RealH
import Idealize.ShloMosaic.Adequacy
import Idealize.ShloMosaic.Init

noncomputable section

namespace Cert.Proof

open Idealize.ShloMosaic Idealize.SL.Sem

/-- The kernel as printed terminates, faults nowhere and leaves its arguments unchanged. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- The idealisation rewrote no operation. -/
theorem preserves : Cert.preserves_Kernel_KernelIdeal := trivial

/-- From memories agreeing on the arguments, with every float argument finite, both programs end with the reference's
    last stage of the arguments as their result. -/
theorem algebraic : Cert.algebraic_KernelIdeal_ReferenceIdeal := by
  intro m ρ m' ρ' hpre hagree
  have hreal : ∀ c : Dev Cert.KernelIdeal.nD, Cert.Gcn.AllReal (Cert.KernelIdeal.KHost.hOf m c) := fun c => by
    obtain ⟨h0, h2, h3⟩ := Cert.Gcn.RealH.args_real _ _ _ _ _ _ _ _ (hpre c)
    exact Cert.Gcn.RealH.h_real _ _ _ _ h0 h2 h3
  refine ⟨fun c => Cert.ReferenceIdeal.ReadP.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run (Cert.KernelIdeal.defs (F := Ideal)) _ _).mono
      (fun r h c => ⟨(h c).1.trans (Cert.KernelIdeal.KHost.W10_out m ρ c (hreal c)), (h c).2⟩)
      (Cert.KernelIdeal.KRun.run_main (F := Ideal) m ρ)
  · refine (θ_run (Cert.ReferenceIdeal.defs (F := Ideal)) _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
